-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x2048 : Shape := ⟨2, ![1024, 2048]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x2048x1024 .f32) (main_arg1 : FVec F S8x2048x1024 .f32) (main_arg2 : FVec F S1024x2048 .f32) (main_arg3 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x2048x1024 : Shape := ⟨3, ![8, 2048, 1024]⟩
abbrev S1024x2048 : Shape := ⟨2, ![1024, 2048]⟩
abbrev S1024 : Shape := ⟨1, ![1024]⟩
abbrev S1024x1024 : Shape := ⟨2, ![1024, 1024]⟩
abbrev S1x1024 : Shape := ⟨2, ![1, 1024]⟩
abbrev S1x1024x1024 : Shape := ⟨3, ![1, 1024, 1024]⟩

abbrev nBuf : Space → Nat
  | .hbm => 12
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x2048, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024, .f32⟩
  | .local _ .vmem, ⟨10, _⟩ => ⟨S1x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c2_i32_3 : BitVec 32 := 2#32
  let v9 : BitVec 1 := Scalar.cmpi .sge arg1 c2_i32_3
  let v10 : BitVec 32 := Scalar.extui v9
  let c0_i32_4 : BitVec 32 := 0#32
  let v11 : BitVec 1 := Scalar.cmpi .ne v10 c0_i32_4
  v11

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S1024x2048_S1024x1024_0_0 : S1024x2048.Slices ![0, 0] S1024x1024
  slices_S1024x2048_S1024x1024_0_1024 : S1024x2048.Slices ![0, 1024] S1024x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [0] S1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S1024x1024 : S1x1024.Broadcasts S1024x1024
  shapeCasts_S1024x1024_S1x1024x1024 : S1024x1024.ShapeCasts S1x1024x1024
  dot_S1x1024_S1024x1024_S1x1024_1_0_0_1_n_n_wf : DotDims.WF S1x1024 S1024x1024 S1x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x2048x1024.size a
  hwx0_1 : ∀ i : grid0.Coords, EltTy.bits .f32 = 32 ∨ (Rect.block (s := S8x2048x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S8x2048x1024.size a
  hwx0_5 : ∀ i : grid0.Coords, EltTy.bits .f32 = 32 ∨ (Rect.block (s := S8x2048x1024) S1x1024x1024.size (cc0_transform_5 i) (hinb0_5 i)).WholeWords (EltTy.packing .f32)

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond4 i == 1#1) | ⟨_ + 6, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x2048 : Shape := ⟨2, ![1024, 2048]⟩
abbrev S1024 : Shape := ⟨1, ![1024]⟩
abbrev S1024x1024 : Shape := ⟨2, ![1024, 1024]⟩
abbrev S_ : Shape := ⟨0, ![]⟩
abbrev S8x1024 : Shape := ⟨2, ![8, 1024]⟩
abbrev S8x1x1024 : Shape := ⟨3, ![8, 1, 1024]⟩
abbrev S1x1x1024 : Shape := ⟨3, ![1, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x2048, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S8x2048x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1x1024, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  slices_S1024x2048_S1024x1024_0_0 : S1024x2048.Slices ![0, 0] S1024x1024
  slices_S1024x2048_S1024x1024_0_1024 : S1024x2048.Slices ![0, 1024] S1024x1024
  reducesTo_S8x2048x1024_S8x1024_d1 : S8x2048x1024.ReducesTo [1] S8x1024
  h_S_ : 0 < S_.numel
  bcast_S_S8x1024 : S_.BroadcastsInDim S8x1024 (![] : Fin 0 → Fin S8x1024.rank)
  bcast_S8x1024_S8x1x1024_0_2 : S8x1024.BroadcastsInDim S8x1x1024 (![0, 2] : Fin 2 → Fin S8x1x1024.rank)
  bcast_S8x1x1024_S8x2048x1024_0_1_2 : S8x1x1024.BroadcastsInDim S8x2048x1024 (![0, 1, 2] : Fin 3 → Fin S8x2048x1024.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  dot_S8x2048x1024_S1024x1024_S8x2048x1024_2_1_01_0_n_n_wf : DotDims.WF S8x2048x1024 S1024x1024 S8x2048x1024 [2] [1] [0, 1] [0] [] []
  dot_S8x1024_S1024x1024_S8x1024_1_1_0_0_n_n_wf : DotDims.WF S8x1024 S1024x1024 S8x1024 [1] [1] [0] [0] [] []

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x1024_S1024x1024_S8x1024_1_1_0_0_n_n : DotDims S8x1024 S1024x1024 S8x1024 where
  lhsContracting := [1]
  rhsContracting := [1]
  lhsNonContracting := [0]
  rhsNonContracting := [0]
  lhsBatch := []
  rhsBatch := []
  wf := dot_S8x1024_S1024x1024_S8x1024_1_1_0_0_n_n_wf

class Facts : Prop extends Facts₀ where

variable [Facts]
-- ==== Proof.K.Phases.lean ====
/-
  The grid of the fused kernel is 8 batches of 4 steps; point `t` is step `t % 4` of batch `t / 4`.
  Step 0 clears the column-sum accumulator and adds the first half of the batch's rows of x2 to it; step 1 adds
  the second half and then turns the accumulated sums into the batch's bias row (mean times W2ᵀ plus b);
  steps 2 and 3 each multiply one half of the batch's rows of x1 by W1ᵀ and add the bias row.
  Here: which of the body's four conditionals holds at which point, where the output window is idle,
  and names for the buffers the body is called with.
-/
import proofs.«168540_j82446192214445_2_alg».proof.Proof.Gen.Kernel.Frame
import proofs.«168540_j82446192214445_2_alg».proof.Proof.Gen.Kernel.Skeleton

set_option maxRecDepth 16384

noncomputable section

namespace Cert.Kernel.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The four conditionals, as the body computes them from the step coordinate -/

/-- "this is step 0 of the batch": the accumulator is cleared. -/
abbrev atClear (i : grid0.Coords) : Prop :=
  (Scalar.cmpi .ne (Scalar.extui (Scalar.cmpi .eq (BitVec.ofNat 32 (i 1).val) 0#32)) 0#32) = 1#1
/-- "this is step 0 or 1": rows of x2 are summed into the accumulator. -/
abbrev inSum (i : grid0.Coords) : Prop :=
  (Scalar.cmpi .ne (Scalar.extui (Scalar.cmpi .slt (BitVec.ofNat 32 (i 1).val) 2#32)) 0#32) = 1#1
/-- "this is step 1": the sums become the bias row. -/
abbrev atBias (i : grid0.Coords) : Prop :=
  (Scalar.cmpi .ne (Scalar.extui (Scalar.cmpi .eq (BitVec.ofNat 32 (i 1).val) 1#32)) 0#32) = 1#1
/-- "this is step 2 or 3": a block of rows of the result is produced. -/
abbrev inProduct (i : grid0.Coords) : Prop := k0_cond4 i = 1#1

theorem atClear_iff : ∀ t : Fin cfg0.N, atClear (grid0.coords t) ↔ t.val % 4 = 0 :=
  (by decide +kernel : ∀ t : Fin grid0.N, atClear (grid0.coords t) ↔ t.val % 4 = 0)
theorem inSum_iff : ∀ t : Fin cfg0.N, inSum (grid0.coords t) ↔ t.val % 4 < 2 :=
  (by decide +kernel : ∀ t : Fin grid0.N, inSum (grid0.coords t) ↔ t.val % 4 < 2)
theorem atBias_iff : ∀ t : Fin cfg0.N, atBias (grid0.coords t) ↔ t.val % 4 = 1 :=
  (by decide +kernel : ∀ t : Fin grid0.N, atBias (grid0.coords t) ↔ t.val % 4 = 1)
theorem inProduct_iff : ∀ t : Fin cfg0.N, inProduct (grid0.coords t) ↔ 2 ≤ t.val % 4 :=
  (by decide +kernel : ∀ t : Fin grid0.N, inProduct (grid0.coords t) ↔ 2 ≤ t.val % 4)

/-! ## Where the windows are idle -/

theorem live_x1 : ∀ t : Fin cfg0.N, cfg0.idle 0 (grid0.coords t) = false := by decide +kernel
theorem live_x2 : ∀ t : Fin cfg0.N, cfg0.idle 1 (grid0.coords t) = false := by decide +kernel
theorem live_w1 : ∀ t : Fin cfg0.N, cfg0.idle 2 (grid0.coords t) = false := by decide +kernel
theorem live_w2 : ∀ t : Fin cfg0.N, cfg0.idle 3 (grid0.coords t) = false := by decide +kernel
theorem live_b : ∀ t : Fin cfg0.N, cfg0.idle 4 (grid0.coords t) = false := by decide +kernel
/-- In the summing steps nothing is stored into the result's block, -/
theorem idle_out : ∀ t : Fin cfg0.N, ¬inProduct (grid0.coords t) → cfg0.idle 5 (grid0.coords t) = true := by decide +kernel
/-- and the block is not written back there; -/
theorem noFlush_out : ∀ t : Fin cfg0.N, ¬inProduct (grid0.coords t) → (cfg0.win 5).flush t = false := by decide +kernel
/-- in the product steps the block is stored -/
theorem live_out : ∀ t : Fin cfg0.N, inProduct (grid0.coords t) → cfg0.idle 5 (grid0.coords t) = false := by decide +kernel
/-- and written back. -/
theorem flush_out : ∀ t : Fin cfg0.N, inProduct (grid0.coords t) → (cfg0.win 5).flush t = true := by decide +kernel

/-! ## The buffers the body is called with at a point -/

abbrev mX1 (t : Fin cfg0.N) : Memref sig .tc .vmem S1x1024x1024 .f32 := win0_0.stage (cfg0.slots t 0)
abbrev hX1 (t : Fin cfg0.N) : (mX1 t).IsWhole := hstage0_0 ((cfg0.slots t 0).cast nbuf0_0)
abbrev mX2 (t : Fin cfg0.N) : Memref sig .tc .vmem S1x1024x1024 .f32 := win0_1.stage (cfg0.slots t 1)
abbrev hX2 (t : Fin cfg0.N) : (mX2 t).IsWhole := hstage0_1 ((cfg0.slots t 1).cast nbuf0_1)
abbrev mW1 (t : Fin cfg0.N) : Memref sig .tc .vmem S1024x1024 .bf16 := win0_2.stage (cfg0.slots t 2)
abbrev hW1 (t : Fin cfg0.N) : (mW1 t).IsWhole := hstage0_2 ((cfg0.slots t 2).cast nbuf0_2)
abbrev mW2 (t : Fin cfg0.N) : Memref sig .tc .vmem S1024x1024 .bf16 := win0_3.stage (cfg0.slots t 3)
abbrev hW2 (t : Fin cfg0.N) : (mW2 t).IsWhole := hstage0_3 ((cfg0.slots t 3).cast nbuf0_3)
abbrev mB (t : Fin cfg0.N) : Memref sig .tc .vmem S1x1024 .f32 := win0_4.stage (cfg0.slots t 4)
abbrev hB (t : Fin cfg0.N) : (mB t).IsWhole := hstage0_4 ((cfg0.slots t 4).cast nbuf0_4)
abbrev mOut (t : Fin cfg0.N) : Memref sig .tc .vmem S1x1024x1024 .f32 := win0_5.stage (cfg0.slots t 5)
abbrev hOut (t : Fin cfg0.N) : (mOut t).IsWhole := hstage0_5 ((cfg0.slots t 5).cast nbuf0_5)
/-- The accumulator of column sums, and the bias row: the kernel's two scratch buffers. -/
abbrev mAcc : Memref sig .tc .vmem S1x1024 .f32 := Memref.whole cc0_scratch0
abbrev mRow : Memref sig .tc .vmem S1x1024 .f32 := Memref.whole cc0_scratch1
/-- Views through which the contents of the scratch buffers and of a result block are stated. -/
abbrev vAcc : View sig .tc .vmem S1x1024 .f32 := mAcc.view
abbrev vRow : View sig .tc .vmem S1x1024 .f32 := mRow.view
abbrev vOut : View sig .tc .vmem S1x1024x1024 .f32 := (Memref.whole cc0_stg5_0 : Memref sig .tc .vmem S1x1024x1024 .f32).view

/-- Between batches nothing is remembered: both scratch buffers at some contents, and the generator register. -/
theorem restAny_eq (c : Dev nD) :
    (Pipeline.ΦA spec0 c : sProp 𝕄)
      = iprop(iprop((∃ d, owns (c : Thread nD τ) mAcc fullShare d) ∗ (∃ d, owns (c : Thread nD τ) mRow fullShare d)) ∗ (∃ r, prngReg c r)) := by
  unfold Pipeline.ΦA; rw [scopedRest0_eq]; simp only [mAcc, mRow, owns_whole]; try rfl

end Cert.Kernel.Fused

end
-- ==== Proof.K.StepClear.lean ====
/-
  Step 0 of a batch, run on any whole buffers: the accumulator is cleared, then the column sums of the first
  half of the batch's rows of x2 are added to it. The body touches the x2 block (read) and the accumulator
  (found at anything, left at the stores' pieces).
-/
import proofs.«168540_j82446192214445_2_alg».proof.Proof.K.Phases

set_option maxRecDepth 16384

noncomputable section

namespace Cert.Kernel.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces step 0 leaves in the accumulator, with the body's triple: given the x2 block at `x2` and the
    accumulator at anything, the body runs and hands both back, the accumulator with the pieces written. -/
noncomputable def stepClear (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024x1024 .f32) (harg7 : arg7.IsWhole) (arg8 : Memref sig .tc .vmem S1x1024 .f32) (harg8 : arg8.IsWhole) (arg9 : Memref sig .tc .vmem S1x1024 .f32) (harg9 : arg9.IsWhole)
    (h1 : atClear i) (h2 : inSum i) (h3 : ¬atBias i) (h4 : ¬inProduct i) (x2 : Vec F S1x1024x1024 .f32) :
    { LA : List (View.Piece (Elt F) S1x1024 .f32) //
      ∀ (E : Set ℕ) (K : PUnit → sProp 𝕄),
        iprop(owns (c : Thread nD τ) arg3 fullShare x2 ∗ (∃ d, owns (c : Thread nD τ) arg8 fullShare d)
            ∗ (iprop(owns (c : Thread nD τ) arg3 fullShare x2 ∗ (∃ f, arg8.view.loc (c : Thread nD τ) ↦[arg8.view.set]{fullShare} arg8.view.writes (Elt F) f LA)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, fun E K => ?run⟩
  case run =>
    simp only [cc0__fused_kernel_eq_skeleton]; unfold cc0__fused_kernel_skel
    unfold owns
    iintro ⟨⟨%f0, %hf0, H0⟩, ⟨%ds, %fs, -, HS⟩, Hk⟩
    obtain rfl := harg3.eq_unread hf0
    sl_exec (disch := first | exact h1 | exact h2 | exact h3 | exact h4)
    sl_step
    iapply Hk
    isplitl [H0]
    · iexists _; isplitr; · ipureintro; exact harg3.read_unread _
      iexact H0
    iexists _; iexact HS

end Cert.Kernel.Fused

end
-- ==== Proof.K.StepBias.lean ====
/-
  Step 1 of a batch, run on any whole buffers: the column sums of the second half of the batch's rows of x2 are
  added to the accumulator, and the accumulated sums, scaled by 1/2048, are multiplied by W2ᵀ and added to b:
  the batch's bias row. The body reads the x2 block, the W2ᵀ block and b, finds the accumulator at what step 0
  left (`acc`), and the bias row at anything; it leaves both scratch buffers at the stores' pieces.
-/
import proofs.«168540_j82446192214445_2_alg».proof.Proof.K.StepClear

set_option maxRecDepth 16384

noncomputable section

namespace Cert.Kernel.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces step 1 leaves in the accumulator and in the bias row, with the body's triple. -/
noncomputable def stepBias (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024x1024 .f32) (harg7 : arg7.IsWhole) (arg8 : Memref sig .tc .vmem S1x1024 .f32) (harg8 : arg8.IsWhole) (arg9 : Memref sig .tc .vmem S1x1024 .f32) (harg9 : arg9.IsWhole)
    (h1 : ¬atClear i) (h2 : inSum i) (h3 : atBias i) (h4 : ¬inProduct i)
    (x2 : Vec F S1x1024x1024 .f32) (w2 : Vec F S1024x1024 .bf16) (b : Vec F S1x1024 .f32) (acc : Vec F S1x1024 .f32) :
    Σ' (LA : List (View.Piece (Elt F) S1x1024 .f32)), { LR : List (View.Piece (Elt F) S1x1024 .f32) //
      ∀ (E : Set ℕ) (K : PUnit → sProp 𝕄),
        iprop(owns (c : Thread nD τ) arg3 fullShare x2 ∗ owns (c : Thread nD τ) arg5 fullShare w2 ∗ owns (c : Thread nD τ) arg6 fullShare b
            ∗ owns (c : Thread nD τ) arg8 fullShare acc ∗ (∃ d, owns (c : Thread nD τ) arg9 fullShare d)
            ∗ (iprop(owns (c : Thread nD τ) arg3 fullShare x2 ∗ owns (c : Thread nD τ) arg5 fullShare w2 ∗ owns (c : Thread nD τ) arg6 fullShare b
                ∗ (∃ f, arg8.view.loc (c : Thread nD τ) ↦[arg8.view.set]{fullShare} arg8.view.writes (Elt F) f LA)
                ∗ (∃ f, arg9.view.loc (c : Thread nD τ) ↦[arg9.view.set]{fullShare} arg9.view.writes (Elt F) f LR)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%fa, %hfa, HA⟩, ⟨%dr, %fr, -, HR⟩, Hk⟩
    obtain rfl := harg3.eq_unread hf0; obtain rfl := harg5.eq_unread hf1; obtain rfl := harg6.eq_unread hf2
    obtain rfl := harg8.eq_unread hfa
    sl_exec (disch := first | exact h1 | exact h2 | exact h3 | exact h4)
    sl_step
    iapply Hk
    isplitl [H0]
    · iexists _; isplitr; · ipureintro; exact harg3.read_unread _
      iexact H0
    isplitl [H1]
    · iexists _; isplitr; · ipureintro; exact harg5.read_unread _
      iexact H1
    isplitl [H2]
    · iexists _; isplitr; · ipureintro; exact harg6.read_unread _
      iexact H2
    isplitl [HA]
    · iexists _; iexact HA
    iexists _; iexact HR

end Cert.Kernel.Fused

end
-- ==== Proof.K.StepProduct.lean ====
/-
  Steps 2 and 3 of a batch, run on any whole buffers: a block of 1024 rows of x1 is multiplied by W1ᵀ and the
  batch's bias row is added to every row of the product; the result block is stored whole. The body reads the
  x1 block and the W1ᵀ block, finds the bias row at what step 1 left (`row`) and leaves it there, and finds the
  result's buffer at anything.
-/
import proofs.«168540_j82446192214445_2_alg».proof.Proof.K.StepBias

set_option maxRecDepth 16384

noncomputable section

namespace Cert.Kernel.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces a product step leaves in the result's buffer, with the body's triple. -/
noncomputable def stepProduct (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024x1024 .f32) (harg7 : arg7.IsWhole) (arg8 : Memref sig .tc .vmem S1x1024 .f32) (harg8 : arg8.IsWhole) (arg9 : Memref sig .tc .vmem S1x1024 .f32) (harg9 : arg9.IsWhole)
    (h1 : ¬atClear i) (h2 : ¬inSum i) (h3 : ¬atBias i) (h4 : inProduct i)
    (x1 : Vec F S1x1024x1024 .f32) (w1 : Vec F S1024x1024 .bf16) (row : Vec F S1x1024 .f32) :
    { LO : List (View.Piece (Elt F) S1x1024x1024 .f32) //
      ∀ (E : Set ℕ) (K : PUnit → sProp 𝕄),
        iprop(owns (c : Thread nD τ) arg2 fullShare x1 ∗ owns (c : Thread nD τ) arg4 fullShare w1
            ∗ owns (c : Thread nD τ) arg9 fullShare row ∗ (∃ d, owns (c : Thread nD τ) arg7 fullShare d)
            ∗ (iprop(owns (c : Thread nD τ) arg2 fullShare x1 ∗ owns (c : Thread nD τ) arg4 fullShare w1
                ∗ owns (c : Thread nD τ) arg9 fullShare row
                ∗ (∃ f, arg7.view.loc (c : Thread nD τ) ↦[arg7.view.set]{fullShare} arg7.view.writes (Elt F) f LO)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%fr, %hfr, HR⟩, ⟨%do_, %fo, -, HO⟩, Hk⟩
    obtain rfl := harg2.eq_unread hf0; obtain rfl := harg4.eq_unread hf1; obtain rfl := harg9.eq_unread hfr
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg4.read_unread _
      iexact H1
    isplitl [HR]
    · iexists _; isplitr; · ipureintro; exact harg9.read_unread _
      iexact HR
    iexists _; iexact HO

end Cert.Kernel.Fused

end
-- ==== Proof.K.Carried.lean ====
/-
  The frame of the fused kernel: the proof data of its pipeline, the invariant its two scratch buffers carry
  through the four steps of a batch, the body's obligation at every point, and the run.

  What is remembered between points. Before step 0 of a batch nothing: both scratch buffers hold anything.
  After step 0 the accumulator holds the column sums of the first half of the batch's rows of x2 (`accOf`).
  After step 1 the bias row holds (sums / 2048)·W2ᵀ + b (`rowOf`), which steps 2 and 3 read and leave in place;
  the accumulator is no longer needed and is forgotten. After step 3 everything is forgotten again.
  The result's block is stored only in steps 2 and 3 (`outOf`) and is written back exactly there.
-/
import proofs.«168540_j82446192214445_2_alg».proof.Proof.K.StepProduct

set_option maxRecDepth 16384

noncomputable section

namespace Cert.Kernel.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N32 : cfg0.N = 32 := N_0

/-! ## What each step leaves -/

/-- The accumulator after step 0 at point `s`: that step's pieces read back. -/
def accOf (c : Dev nD) (s : Fin cfg0.N) (h : s.val % 4 = 0) : Vec F S1x1024 .f32 :=
  vAcc.read (Elt F) (vAcc.writes (Elt F) vAcc.junk
    (stepClear c (grid0.coords s) (mX1 s) (hX1 s) (mX2 s) (hX2 s) (mW1 s) (hW1 s) (mW2 s) (hW2 s) (mB s) (hB s) (mOut s) (hOut s) mAcc (Memref.isWhole_whole _) mRow (Memref.isWhole_whole _) ((atClear_iff s).mpr h) ((inSum_iff s).mpr (by omega)) (fun h' => by have := (atBias_iff s).mp h'; omega) (fun h' => by have := (inProduct_iff s).mp h'; omega) (iblk m c 1 s)).1)

theorem accOf_congr (c : Dev nD) {s s' : Fin cfg0.N} (e : s = s') (h : s.val % 4 = 0) (h' : s'.val % 4 = 0) :
    accOf m c s h = accOf m c s' h' := by subst e; rfl

/-- Step 0's pieces cover the accumulator (each store writes all of it). -/
theorem accCover (c : Dev nD) (s : Fin cfg0.N) (h : s.val % 4 = 0) (y : S1x1024.Idx) :
    ∃ pc ∈ (stepClear c (grid0.coords s) (mX1 s) (hX1 s) (mX2 s) (hX2 s) (mW1 s) (hW1 s) (mW2 s) (hW2 s) (mB s) (hB s) (mOut s) (hOut s) mAcc (Memref.isWhole_whole _) mRow (Memref.isWhole_whole _) ((atClear_iff s).mpr h) ((inSum_iff s).mpr (by omega)) (fun h' => by have := (atBias_iff s).mp h'; omega) (fun h' => by have := (inProduct_iff s).mp h'; omega) (iblk m c 1 s)).1, y ∈ pc.1.set :=
  View.cover_of_tiledL _ S1x1024.size (by sl_kernel_rfl) y

/-- The point of step 0 of the batch of point `s`. -/
abbrev clearPt (s : Fin cfg0.N) : Fin cfg0.N := ⟨4 * (s.val / 4), by have := s.isLt; have := N32; omega⟩
/-- The point of step 1 of the batch of point `s`. -/
abbrev biasPt (s : Fin cfg0.N) (h : s.val % 4 ≠ 0) : Fin cfg0.N := ⟨4 * (s.val / 4) + 1, by have := s.isLt; have := N32; omega⟩

/-- The bias row after step 1 at point `s`: that step's pieces for it read back, the accumulator found at what
    step 0 of the same batch left. -/
def rowOf (c : Dev nD) (s : Fin cfg0.N) (h : s.val % 4 = 1) : Vec F S1x1024 .f32 :=
  vRow.read (Elt F) (vRow.writes (Elt F) vRow.junk
    (stepBias c (grid0.coords s) (mX1 s) (hX1 s) (mX2 s) (hX2 s) (mW1 s) (hW1 s) (mW2 s) (hW2 s) (mB s) (hB s) (mOut s) (hOut s) mAcc (Memref.isWhole_whole _) mRow (Memref.isWhole_whole _) (fun h' => by have := (atClear_iff s).mp h'; omega) ((inSum_iff s).mpr (by omega)) ((atBias_iff s).mpr h) (fun h' => by have := (inProduct_iff s).mp h'; omega) (iblk m c 1 s) (iblk m c 3 s) (iblk m c 4 s)
      (accOf m c (clearPt s) (Nat.mul_mod_right 4 _))).2.1)

theorem rowOf_congr (c : Dev nD) {s s' : Fin cfg0.N} (e : s = s') (h : s.val % 4 = 1) (h' : s'.val % 4 = 1) :
    rowOf m c s h = rowOf m c s' h' := by subst e; rfl

theorem rowCover (c : Dev nD) (s : Fin cfg0.N) (h : s.val % 4 = 1) (y : S1x1024.Idx) :
    ∃ pc ∈ (stepBias c (grid0.coords s) (mX1 s) (hX1 s) (mX2 s) (hX2 s) (mW1 s) (hW1 s) (mW2 s) (hW2 s) (mB s) (hB s) (mOut s) (hOut s) mAcc (Memref.isWhole_whole _) mRow (Memref.isWhole_whole _) (fun h' => by have := (atClear_iff s).mp h'; omega) ((inSum_iff s).mpr (by omega)) ((atBias_iff s).mpr h) (fun h' => by have := (inProduct_iff s).mp h'; omega) (iblk m c 1 s) (iblk m c 3 s) (iblk m c 4 s)
      (accOf m c (clearPt s) (Nat.mul_mod_right 4 _))).2.1, y ∈ pc.1.set :=
  View.cover_of_tiledL _ S1x1024.size (by sl_kernel_rfl) y

/-- The batch's bias row as steps 2 and 3 at point `s` find it. -/
abbrev rowFor (c : Dev nD) (s : Fin cfg0.N) (h : s.val % 4 ≠ 0) : Vec F S1x1024 .f32 :=
  rowOf m c (biasPt s h) (by show (4 * (s.val / 4) + 1) % 4 = 1; omega)

/-- The result's block after a product step at point `s`: that step's pieces read back. -/
def outOf (c : Dev nD) (s : Fin cfg0.N) (h : 2 ≤ s.val % 4) : Vec F S1x1024x1024 .f32 :=
  vOut.read (Elt F) (vOut.writes (Elt F) vOut.junk
    (stepProduct c (grid0.coords s) (mX1 s) (hX1 s) (mX2 s) (hX2 s) (mW1 s) (hW1 s) (mW2 s) (hW2 s) (mB s) (hB s) (mOut s) (hOut s) mAcc (Memref.isWhole_whole _) mRow (Memref.isWhole_whole _) (fun h' => by have := (atClear_iff s).mp h'; omega) (fun h' => by have := (inSum_iff s).mp h'; omega) (fun h' => by have := (atBias_iff s).mp h'; omega) ((inProduct_iff s).mpr h) (iblk m c 0 s) (iblk m c 2 s)
      (rowFor m c s (by omega))).1)

theorem outCover (c : Dev nD) (s : Fin cfg0.N) (h : 2 ≤ s.val % 4) (y : S1x1024x1024.Idx) :
    ∃ pc ∈ (stepProduct c (grid0.coords s) (mX1 s) (hX1 s) (mX2 s) (hX2 s) (mW1 s) (hW1 s) (mW2 s) (hW2 s) (mB s) (hB s) (mOut s) (hOut s) mAcc (Memref.isWhole_whole _) mRow (Memref.isWhole_whole _) (fun h' => by have := (atClear_iff s).mp h'; omega) (fun h' => by have := (inSum_iff s).mp h'; omega) (fun h' => by have := (atBias_iff s).mp h'; omega) ((inProduct_iff s).mpr h) (iblk m c 0 s) (iblk m c 2 s)
      (rowFor m c s (by omega))).1, y ∈ pc.1.set :=
  View.cover_of_tiledL _ S1x1024x1024.size (by sl_kernel_rfl) y

/-- What the result's staging buffer holds after the body at point `t`: the product step's block; at a summing
    step nothing is stored, the window is idle and not written back, and this value is never consulted. -/
def outAt (c : Dev nD) (t : Fin cfg0.N) : Vec F S1x1024x1024 .f32 :=
  if h : 2 ≤ t.val % 4 then outOf m c t h else vOut.read (Elt F) vOut.junk

theorem outAt_product (c : Dev nD) (t : Fin cfg0.N) (h : 2 ≤ t.val % 4) : outAt m c t = outOf m c t h := dif_pos h

/-! ## What the scratch buffers carry -/

/-- The invariant before position `n`, by the step `n % 4` about to run. -/
def carried (c : Dev nD) (n : ℕ) (hn : n ≤ cfg0.N) : sProp 𝕄 :=
  if h0 : n % 4 = 0 then Pipeline.ΦA spec0 c
  else if h1 : n % 4 = 1 then
    iprop(iprop(owns (c : Thread nD τ) mAcc fullShare (accOf m c ⟨4 * (n / 4), by have := N32; omega⟩ (Nat.mul_mod_right 4 _))
      ∗ (∃ d, owns (c : Thread nD τ) mRow fullShare d)) ∗ (∃ r, prngReg c r))
  else
    iprop(iprop((∃ d, owns (c : Thread nD τ) mAcc fullShare d)
      ∗ owns (c : Thread nD τ) mRow fullShare (rowOf m c ⟨4 * (n / 4) + 1, by have := N32; omega⟩ (by show (4 * (n / 4) + 1) % 4 = 1; omega))) ∗ (∃ r, prngReg c r))

theorem carried_start (c : Dev nD) (n : ℕ) (hn : n ≤ cfg0.N) (h0 : n % 4 = 0) : carried m c n hn = Pipeline.ΦA spec0 c := dif_pos h0

theorem carried_sums (c : Dev nD) (n : ℕ) (hn : n ≤ cfg0.N) (h1 : n % 4 = 1) :
    carried m c n hn = iprop(iprop(owns (c : Thread nD τ) mAcc fullShare (accOf m c ⟨4 * (n / 4), by have := N32; omega⟩ (Nat.mul_mod_right 4 _))
      ∗ (∃ d, owns (c : Thread nD τ) mRow fullShare d)) ∗ (∃ r, prngReg c r)) :=
  (dif_neg (by omega)).trans (dif_pos h1)

theorem carried_row (c : Dev nD) (n : ℕ) (hn : n ≤ cfg0.N) (h2 : 2 ≤ n % 4) :
    carried m c n hn = iprop(iprop((∃ d, owns (c : Thread nD τ) mAcc fullShare d)
      ∗ owns (c : Thread nD τ) mRow fullShare (rowOf m c ⟨4 * (n / 4) + 1, by have := N32; omega⟩ (by show (4 * (n / 4) + 1) % 4 = 1; omega))) ∗ (∃ r, prngReg c r)) :=
  (dif_neg (by omega)).trans (dif_neg (by omega))

/-! ## The pipeline's proof data -/

/-- On core `c`: the arrays as the region finds them; after the body every input's buffer still at its block, the
    result's at `outAt`; the invariant `carried`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem carried_succ (c : Dev nD) (t : Fin cfg0.N) :
    (dats m 0 c).Φ t.succ = carried m c (t.val + 1) t.isLt := rfl

theorem after_x1 (c : Dev nD) (t : Fin cfg0.N) : (dats m 0 c).after 0 t = iblk m c 0 t := by dsimp only [dats]
theorem after_x2 (c : Dev nD) (t : Fin cfg0.N) : (dats m 0 c).after 1 t = iblk m c 1 t := by dsimp only [dats]
theorem after_w1 (c : Dev nD) (t : Fin cfg0.N) : (dats m 0 c).after 2 t = iblk m c 2 t := by dsimp only [dats]
theorem after_w2 (c : Dev nD) (t : Fin cfg0.N) : (dats m 0 c).after 3 t = iblk m c 3 t := by dsimp only [dats]
theorem after_b (c : Dev nD) (t : Fin cfg0.N) : (dats m 0 c).after 4 t = iblk m c 4 t := by dsimp only [dats]
theorem after_out (c : Dev nD) (t : Fin cfg0.N) : (dats m 0 c).after 5 t = outAt m c t := by dsimp only [dats]

/-- Each input's current staging buffer holds its block at every point, fetched there or not. -/
theorem before_x1 (c : Dev nD) (t : Fin cfg0.N) (d) : (dats m 0 c).before 0 t d = iblk m c 0 t :=
  before0_0_of m (dats m 0 c) (A_eq m c 0) (after_x1 m c) t d
theorem before_x2 (c : Dev nD) (t : Fin cfg0.N) (d) : (dats m 0 c).before 1 t d = iblk m c 1 t :=
  before0_1_of m (dats m 0 c) (A_eq m c 1) (after_x2 m c) t d
theorem before_w1 (c : Dev nD) (t : Fin cfg0.N) (d) : (dats m 0 c).before 2 t d = iblk m c 2 t :=
  before0_2_of m (dats m 0 c) (A_eq m c 2) (after_w1 m c) t d
theorem before_w2 (c : Dev nD) (t : Fin cfg0.N) (d) : (dats m 0 c).before 3 t d = iblk m c 3 t :=
  before0_3_of m (dats m 0 c) (A_eq m c 3) (after_w2 m c) t d
theorem before_b (c : Dev nD) (t : Fin cfg0.N) (d) : (dats m 0 c).before 4 t d = iblk m c 4 t :=
  before0_4_of m (dats m 0 c) (A_eq m c 4) (after_b m c) t d

/-- The inputs are never idle: the body hands each buffer back at its block. -/
theorem leaves_x1 (c : Dev nD) (t : Fin cfg0.N) : (dats m 0 c).leavesExact 0 t = owns (c : Thread nD τ) (mX1 t) fullShare (iblk m c 0 t) := by
  unfold Dat.leavesExact; rw [live_x1 t, after_x1]
theorem leaves_x2 (c : Dev nD) (t : Fin cfg0.N) : (dats m 0 c).leavesExact 1 t = owns (c : Thread nD τ) (mX2 t) fullShare (iblk m c 1 t) := by
  unfold Dat.leavesExact; rw [live_x2 t, after_x2]
theorem leaves_w1 (c : Dev nD) (t : Fin cfg0.N) : (dats m 0 c).leavesExact 2 t = owns (c : Thread nD τ) (mW1 t) fullShare (iblk m c 2 t) := by
  unfold Dat.leavesExact; rw [live_w1 t, after_w1]
theorem leaves_w2 (c : Dev nD) (t : Fin cfg0.N) : (dats m 0 c).leavesExact 3 t = owns (c : Thread nD τ) (mW2 t) fullShare (iblk m c 3 t) := by
  unfold Dat.leavesExact; rw [live_w2 t, after_w2]
theorem leaves_b (c : Dev nD) (t : Fin cfg0.N) : (dats m 0 c).leavesExact 4 t = owns (c : Thread nD τ) (mB t) fullShare (iblk m c 4 t) := by
  unfold Dat.leavesExact; rw [live_b t, after_b]

end Cert.Kernel.Fused

end
-- ==== Proof.K.Body.lean ====
/-
  The body's obligation at every point of the grid, by the step the point is, and from it the run of the whole
  program and its frame: it terminates, faults nowhere, and leaves the argument arrays as they were.
-/
import proofs.«168540_j82446192214445_2_alg».proof.Proof.K.Carried

set_option maxRecDepth 16384

noncomputable section

namespace Cert.Kernel.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mX1 t) fullShare ((dats m 0 c).before 0 t d))
    ∗ (∃ d, owns (c : Thread nD τ) (mX2 t) fullShare ((dats m 0 c).before 1 t d))
    ∗ (∃ d, owns (c : Thread nD τ) (mW1 t) fullShare ((dats m 0 c).before 2 t d))
    ∗ (∃ d, owns (c : Thread nD τ) (mW2 t) fullShare ((dats m 0 c).before 3 t d))
    ∗ (∃ d, owns (c : Thread nD τ) (mB t) fullShare ((dats m 0 c).before 4 t d))
    ∗ (∃ d, owns (c : Thread nD τ) (mOut t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The inputs' buffers hold their blocks; the step `t % 4` says which conditionals hold,
    so that step's run applies; the invariant hands the run the scratch contents it reads and takes back what it
    leaves; in the summing steps the result's buffer goes back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x1, before_x2, before_w1, before_w2, before_b]
  rw [show (dats m 0 c).owesAt () t.succ = (dats m 0 c).owesAt () t.castSucc from rfl]
  rw [carried_castSucc, carried_succ, leaves_x1, leaves_x2, leaves_w1, leaves_w2, leaves_b]
  have hN : t.val < 32 := lt_of_lt_of_eq t.isLt N32
  by_cases h0 : t.val % 4 = 0
  · -- step 0: clear, then sum the first half
    have hP : ¬inProduct (grid0.coords t) := fun h' => by have := (inProduct_iff t).mp h'; omega
    rw [Dat.leavesExact_idle (dats m 0 c) 5 t (idle_out t hP) (noFlush_out t hP)]
    rw [carried_start m c _ _ h0, restAny_eq, carried_sums m c (t.val + 1) _ (by omega)]
    rw [accOf_congr m c (s' := t) (Fin.ext (by show 4 * ((t.val + 1) / 4) = t.val; omega)) _ h0]
    unfold accOf; (try dsimp only)
    iintro ⟨⟨⟨HA, HR⟩, Hg⟩, Ho, ⟨%d0, H0⟩, ⟨%d1, H1⟩, ⟨%d2, H2⟩, ⟨%d3, H3⟩, ⟨%d4, H4⟩, ⟨%d5, H5⟩⟩
    iapply ((stepClear c (grid0.coords t) _ _ _ _ _ _ _ _ _ _ _ _ _ _ _ _ ((atClear_iff t).mpr h0) ((inSum_iff t).mpr (by omega)) (fun h' => by have := (atBias_iff t).mp h'; omega) hP (iblk m c 1 t)).2 Set.univ _)
    isplitl [H1]; · iexact H1
    isplitl [HA]; · iexact HA
    iintro ⟨H1, ⟨%ea, HA⟩⟩
    isplitl [HA HR Hg]
    · isplitl [HA HR]
      · isplitl [HA]
        · unfold owns; iexists _; isplitr
          swap; · iexact HA
          ipureintro; exact View.read_writes_of_cover _ _ _ _ _ (accCover m c t h0)
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val % 4 = 1
    · -- step 1: sum the second half, then the bias row
      have hP : ¬inProduct (grid0.coords t) := fun h' => by have := (inProduct_iff t).mp h'; omega
      rw [Dat.leavesExact_idle (dats m 0 c) 5 t (idle_out t hP) (noFlush_out t hP)]
      rw [carried_sums m c _ _ h1, carried_row m c (t.val + 1) _ (by omega)]
      rw [rowOf_congr m c (s' := t) (Fin.ext (by show 4 * ((t.val + 1) / 4) + 1 = t.val; omega)) _ h1]
      unfold rowOf; (try dsimp only)
      iintro ⟨⟨⟨HA, HR⟩, Hg⟩, Ho, ⟨%d0, H0⟩, ⟨%d1, H1⟩, ⟨%d2, H2⟩, ⟨%d3, H3⟩, ⟨%d4, H4⟩, ⟨%d5, H5⟩⟩
      iapply ((stepBias c (grid0.coords t) _ _ _ _ _ _ _ _ _ _ _ _ _ _ _ _ (fun h' => by have := (atClear_iff t).mp h'; omega) ((inSum_iff t).mpr (by omega)) ((atBias_iff t).mpr h1) hP (iblk m c 1 t) (iblk m c 3 t) (iblk m c 4 t) _).2.2 Set.univ _)
      isplitl [H1]; · iexact H1
      isplitl [H3]; · iexact H3
      isplitl [H4]; · iexact H4
      isplitl [HA]; · iexact HA
      isplitl [HR]; · iexact HR
      iintro ⟨H1, H3, H4, ⟨%ea, HA⟩, ⟨%er, HR⟩⟩
      isplitl [HA HR Hg]
      · isplitl [HA HR]
        · isplitl [HA]
          · iexists _; unfold owns; iexists _; isplitr
            swap; · iexact HA
            ipureintro; rfl
          unfold owns; iexists _; isplitr
          swap; · iexact HR
          ipureintro; exact View.read_writes_of_cover _ _ _ _ _ (rowCover m c t h1)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · -- steps 2 and 3: a block of rows of the result
      have h2 : 2 ≤ t.val % 4 := by omega
      have hP : inProduct (grid0.coords t) := (inProduct_iff t).mpr h2
      rw [show (dats m 0 c).leavesExact 5 t = owns (c : Thread nD τ) (mOut t) fullShare ((dats m 0 c).after 5 t) from by
        unfold Dat.leavesExact; rw [live_out t hP], after_out, outAt_product m c t h2]
      rw [carried_row m c _ _ h2]
      rw [rowOf_congr m c (s' := biasPt t (by omega)) rfl _ (by show (4 * (t.val / 4) + 1) % 4 = 1; omega)]
      unfold outOf; (try dsimp only)
      by_cases h3 : t.val % 4 = 2
      · rw [carried_row m c (t.val + 1) _ (by omega)]
        rw [rowOf_congr m c (s := ⟨4 * ((t.val + 1) / 4) + 1, _⟩) (s' := biasPt t (by omega)) (Fin.ext (by show 4 * ((t.val + 1) / 4) + 1 = 4 * (t.val / 4) + 1; omega)) _ (by show (4 * (t.val / 4) + 1) % 4 = 1; omega)]
        iintro ⟨⟨⟨HA, HR⟩, Hg⟩, Ho, ⟨%d0, H0⟩, ⟨%d1, H1⟩, ⟨%d2, H2⟩, ⟨%d3, H3⟩, ⟨%d4, H4⟩, ⟨%d5, H5⟩⟩
        iapply ((stepProduct c (grid0.coords t) _ _ _ _ _ _ _ _ _ _ _ _ _ _ _ _ (fun h' => by have := (atClear_iff t).mp h'; omega) (fun h' => by have := (inSum_iff t).mp h'; omega) (fun h' => by have := (atBias_iff t).mp h'; omega) hP (iblk m c 0 t) (iblk m c 2 t) _).2 Set.univ _)
        isplitl [H0]; · iexact H0
        isplitl [H2]; · iexact H2
        isplitl [HR]; · iexact HR
        isplitl [H5]; · iexists _; iexact H5
        iintro ⟨H0, H2, HR, ⟨%eo, H5⟩⟩
        isplitl [HA HR Hg]
        · isplitl [HA HR]
          · isplitl [HA]; · iexact HA
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (outCover m c t h2)
      · rw [carried_start m c (t.val + 1) _ (by omega), restAny_eq]
        iintro ⟨⟨⟨HA, HR⟩, Hg⟩, Ho, ⟨%d0, H0⟩, ⟨%d1, H1⟩, ⟨%d2, H2⟩, ⟨%d3, H3⟩, ⟨%d4, H4⟩, ⟨%d5, H5⟩⟩
        iapply ((stepProduct c (grid0.coords t) _ _ _ _ _ _ _ _ _ _ _ _ _ _ _ _ (fun h' => by have := (atClear_iff t).mp h'; omega) (fun h' => by have := (inSum_iff t).mp h'; omega) (fun h' => by have := (atBias_iff t).mp h'; omega) hP (iblk m c 0 t) (iblk m c 2 t) _).2 Set.univ _)
        isplitl [H0]; · iexact H0
        isplitl [H2]; · iexact H2
        isplitl [HR]; · iexact HR
        isplitl [H5]; · iexists _; iexact H5
        iintro ⟨H0, H2, HR, ⟨%eo, H5⟩⟩
        isplitl [HA HR Hg]
        · isplitl [HA HR]
          · isplitl [HA]; · iexact HA
            iexists _; iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (outCover m c t h2)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem carried_in (c : Dev nD) : Pipeline.ΦA spec0 c ⊢ (dats m 0 c).Φ 0 := by
  rw [show (dats m 0 c).Φ 0 = carried m c 0 (Nat.zero_le _) from rfl, carried_start m c 0 _ rfl]
  try exact Idealize.SL.BI.Entails.refl _

/-- After the last point the invariant is again that nothing is remembered. -/
theorem carried_out (c : Dev nD) : (dats m 0 c).Φ (Fin.last cfg0.N) ⊢ Pipeline.ΦA spec0 c := by
  rw [show (dats m 0 c).Φ (Fin.last cfg0.N) = carried m c cfg0.N (Nat.le_refl _) from rfl,
    carried_start m c _ _ (by rw [N32])]
  try exact Idealize.SL.BI.Entails.refl _

set_option backward.isDefEq.respectTransparency.types false in
/-- Every weakly fair execution of the program terminates, and every final state has each array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

/-- The frame of the program, at any reading of the floats: it runs to the end and its four argument arrays end
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fused

end
-- ==== Proof.KI.Phases.lean ====
/-
  The grid of the fused kernel is 8 batches of 4 steps; point `t` is step `t % 4` of batch `t / 4`.
  Step 0 clears the column-sum accumulator and adds the first half of the batch's rows of x2 to it; step 1 adds
  the second half and then turns the accumulated sums into the batch's bias row (mean times W2ᵀ plus b);
  steps 2 and 3 each multiply one half of the batch's rows of x1 by W1ᵀ and add the bias row.
  Here: which of the body's four conditionals holds at which point, where the output window is idle,
  and names for the buffers the body is called with.
-/
import proofs.«168540_j82446192214445_2_alg».proof.Proof.Gen.KernelIdeal.Frame
import proofs.«168540_j82446192214445_2_alg».proof.Proof.Gen.KernelIdeal.Skeleton

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The four conditionals, as the body computes them from the step coordinate -/

/-- "this is step 0 of the batch": the accumulator is cleared. -/
abbrev atClear (i : grid0.Coords) : Prop :=
  (Scalar.cmpi .ne (Scalar.extui (Scalar.cmpi .eq (BitVec.ofNat 32 (i 1).val) 0#32)) 0#32) = 1#1
/-- "this is step 0 or 1": rows of x2 are summed into the accumulator. -/
abbrev inSum (i : grid0.Coords) : Prop :=
  (Scalar.cmpi .ne (Scalar.extui (Scalar.cmpi .slt (BitVec.ofNat 32 (i 1).val) 2#32)) 0#32) = 1#1
/-- "this is step 1": the sums become the bias row. -/
abbrev atBias (i : grid0.Coords) : Prop :=
  (Scalar.cmpi .ne (Scalar.extui (Scalar.cmpi .eq (BitVec.ofNat 32 (i 1).val) 1#32)) 0#32) = 1#1
/-- "this is step 2 or 3": a block of rows of the result is produced. -/
abbrev inProduct (i : grid0.Coords) : Prop := k0_cond4 i = 1#1

theorem atClear_iff : ∀ t : Fin cfg0.N, atClear (grid0.coords t) ↔ t.val % 4 = 0 :=
  (by decide +kernel : ∀ t : Fin grid0.N, atClear (grid0.coords t) ↔ t.val % 4 = 0)
theorem inSum_iff : ∀ t : Fin cfg0.N, inSum (grid0.coords t) ↔ t.val % 4 < 2 :=
  (by decide +kernel : ∀ t : Fin grid0.N, inSum (grid0.coords t) ↔ t.val % 4 < 2)
theorem atBias_iff : ∀ t : Fin cfg0.N, atBias (grid0.coords t) ↔ t.val % 4 = 1 :=
  (by decide +kernel : ∀ t : Fin grid0.N, atBias (grid0.coords t) ↔ t.val % 4 = 1)
theorem inProduct_iff : ∀ t : Fin cfg0.N, inProduct (grid0.coords t) ↔ 2 ≤ t.val % 4 :=
  (by decide +kernel : ∀ t : Fin grid0.N, inProduct (grid0.coords t) ↔ 2 ≤ t.val % 4)

/-! ## Where the windows are idle -/

theorem live_x1 : ∀ t : Fin cfg0.N, cfg0.idle 0 (grid0.coords t) = false := by decide +kernel
theorem live_x2 : ∀ t : Fin cfg0.N, cfg0.idle 1 (grid0.coords t) = false := by decide +kernel
theorem live_w1 : ∀ t : Fin cfg0.N, cfg0.idle 2 (grid0.coords t) = false := by decide +kernel
theorem live_w2 : ∀ t : Fin cfg0.N, cfg0.idle 3 (grid0.coords t) = false := by decide +kernel
theorem live_b : ∀ t : Fin cfg0.N, cfg0.idle 4 (grid0.coords t) = false := by decide +kernel
/-- In the summing steps nothing is stored into the result's block, -/
theorem idle_out : ∀ t : Fin cfg0.N, ¬inProduct (grid0.coords t) → cfg0.idle 5 (grid0.coords t) = true := by decide +kernel
/-- and the block is not written back there; -/
theorem noFlush_out : ∀ t : Fin cfg0.N, ¬inProduct (grid0.coords t) → (cfg0.win 5).flush t = false := by decide +kernel
/-- in the product steps the block is stored -/
theorem live_out : ∀ t : Fin cfg0.N, inProduct (grid0.coords t) → cfg0.idle 5 (grid0.coords t) = false := by decide +kernel
/-- and written back. -/
theorem flush_out : ∀ t : Fin cfg0.N, inProduct (grid0.coords t) → (cfg0.win 5).flush t = true := by decide +kernel

/-! ## The buffers the body is called with at a point -/

abbrev mX1 (t : Fin cfg0.N) : Memref sig .tc .vmem S1x1024x1024 .f32 := win0_0.stage (cfg0.slots t 0)
abbrev hX1 (t : Fin cfg0.N) : (mX1 t).IsWhole := hstage0_0 ((cfg0.slots t 0).cast nbuf0_0)
abbrev mX2 (t : Fin cfg0.N) : Memref sig .tc .vmem S1x1024x1024 .f32 := win0_1.stage (cfg0.slots t 1)
abbrev hX2 (t : Fin cfg0.N) : (mX2 t).IsWhole := hstage0_1 ((cfg0.slots t 1).cast nbuf0_1)
abbrev mW1 (t : Fin cfg0.N) : Memref sig .tc .vmem S1024x1024 .bf16 := win0_2.stage (cfg0.slots t 2)
abbrev hW1 (t : Fin cfg0.N) : (mW1 t).IsWhole := hstage0_2 ((cfg0.slots t 2).cast nbuf0_2)
abbrev mW2 (t : Fin cfg0.N) : Memref sig .tc .vmem S1024x1024 .bf16 := win0_3.stage (cfg0.slots t 3)
abbrev hW2 (t : Fin cfg0.N) : (mW2 t).IsWhole := hstage0_3 ((cfg0.slots t 3).cast nbuf0_3)
abbrev mB (t : Fin cfg0.N) : Memref sig .tc .vmem S1x1024 .f32 := win0_4.stage (cfg0.slots t 4)
abbrev hB (t : Fin cfg0.N) : (mB t).IsWhole := hstage0_4 ((cfg0.slots t 4).cast nbuf0_4)
abbrev mOut (t : Fin cfg0.N) : Memref sig .tc .vmem S1x1024x1024 .f32 := win0_5.stage (cfg0.slots t 5)
abbrev hOut (t : Fin cfg0.N) : (mOut t).IsWhole := hstage0_5 ((cfg0.slots t 5).cast nbuf0_5)
/-- The accumulator of column sums, and the bias row: the kernel's two scratch buffers. -/
abbrev mAcc : Memref sig .tc .vmem S1x1024 .f32 := Memref.whole cc0_scratch0
abbrev mRow : Memref sig .tc .vmem S1x1024 .f32 := Memref.whole cc0_scratch1
/-- Views through which the contents of the scratch buffers and of a result block are stated. -/
abbrev vAcc : View sig .tc .vmem S1x1024 .f32 := mAcc.view
abbrev vRow : View sig .tc .vmem S1x1024 .f32 := mRow.view
abbrev vOut : View sig .tc .vmem S1x1024x1024 .f32 := (Memref.whole cc0_stg5_0 : Memref sig .tc .vmem S1x1024x1024 .f32).view

/-- Between batches nothing is remembered: both scratch buffers at some contents, and the generator register. -/
theorem restAny_eq (c : Dev nD) :
    (Pipeline.ΦA spec0 c : sProp 𝕄)
      = iprop(iprop((∃ d, owns (c : Thread nD τ) mAcc fullShare d) ∗ (∃ d, owns (c : Thread nD τ) mRow fullShare d)) ∗ (∃ r, prngReg c r)) := by
  unfold Pipeline.ΦA; rw [scopedRest0_eq]; simp only [mAcc, mRow, owns_whole]; try rfl

end Cert.KernelIdeal.Fused

end
-- ==== Proof.KI.StepClear.lean ====
/-
  Step 0 of a batch, run on any whole buffers: the accumulator is cleared, then the column sums of the first
  half of the batch's rows of x2 are added to it. The body touches the x2 block (read) and the accumulator
  (found at anything, left at the stores' pieces).
-/
import proofs.«168540_j82446192214445_2_alg».proof.Proof.KI.Phases

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces step 0 leaves in the accumulator, with the body's triple: given the x2 block at `x2` and the
    accumulator at anything, the body runs and hands both back, the accumulator with the pieces written. -/
noncomputable def stepClear (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024x1024 .f32) (harg7 : arg7.IsWhole) (arg8 : Memref sig .tc .vmem S1x1024 .f32) (harg8 : arg8.IsWhole) (arg9 : Memref sig .tc .vmem S1x1024 .f32) (harg9 : arg9.IsWhole)
    (h1 : atClear i) (h2 : inSum i) (h3 : ¬atBias i) (h4 : ¬inProduct i) (x2 : Vec F S1x1024x1024 .f32) :
    { LA : List (View.Piece (Elt F) S1x1024 .f32) //
      ∀ (E : Set ℕ) (K : PUnit → sProp 𝕄),
        iprop(owns (c : Thread nD τ) arg3 fullShare x2 ∗ (∃ d, owns (c : Thread nD τ) arg8 fullShare d)
            ∗ (iprop(owns (c : Thread nD τ) arg3 fullShare x2 ∗ (∃ f, arg8.view.loc (c : Thread nD τ) ↦[arg8.view.set]{fullShare} arg8.view.writes (Elt F) f LA)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, fun E K => ?run⟩
  case run =>
    simp only [cc0__fused_kernel_eq_skeleton]; unfold cc0__fused_kernel_skel
    unfold owns
    iintro ⟨⟨%f0, %hf0, H0⟩, ⟨%ds, %fs, -, HS⟩, Hk⟩
    obtain rfl := harg3.eq_unread hf0
    sl_exec (disch := first | exact h1 | exact h2 | exact h3 | exact h4)
    sl_step
    iapply Hk
    isplitl [H0]
    · iexists _; isplitr; · ipureintro; exact harg3.read_unread _
      iexact H0
    iexists _; iexact HS

end Cert.KernelIdeal.Fused

end
-- ==== Proof.KI.StepBias.lean ====
/-
  Step 1 of a batch, run on any whole buffers: the column sums of the second half of the batch's rows of x2 are
  added to the accumulator, and the accumulated sums, scaled by 1/2048, are multiplied by W2ᵀ and added to b:
  the batch's bias row. The body reads the x2 block, the W2ᵀ block and b, finds the accumulator at what step 0
  left (`acc`), and the bias row at anything; it leaves both scratch buffers at the stores' pieces.
-/
import proofs.«168540_j82446192214445_2_alg».proof.Proof.KI.StepClear

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces step 1 leaves in the accumulator and in the bias row, with the body's triple. -/
noncomputable def stepBias (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024x1024 .f32) (harg7 : arg7.IsWhole) (arg8 : Memref sig .tc .vmem S1x1024 .f32) (harg8 : arg8.IsWhole) (arg9 : Memref sig .tc .vmem S1x1024 .f32) (harg9 : arg9.IsWhole)
    (h1 : ¬atClear i) (h2 : inSum i) (h3 : atBias i) (h4 : ¬inProduct i)
    (x2 : Vec F S1x1024x1024 .f32) (w2 : Vec F S1024x1024 .bf16) (b : Vec F S1x1024 .f32) (acc : Vec F S1x1024 .f32) :
    Σ' (LA : List (View.Piece (Elt F) S1x1024 .f32)), { LR : List (View.Piece (Elt F) S1x1024 .f32) //
      ∀ (E : Set ℕ) (K : PUnit → sProp 𝕄),
        iprop(owns (c : Thread nD τ) arg3 fullShare x2 ∗ owns (c : Thread nD τ) arg5 fullShare w2 ∗ owns (c : Thread nD τ) arg6 fullShare b
            ∗ owns (c : Thread nD τ) arg8 fullShare acc ∗ (∃ d, owns (c : Thread nD τ) arg9 fullShare d)
            ∗ (iprop(owns (c : Thread nD τ) arg3 fullShare x2 ∗ owns (c : Thread nD τ) arg5 fullShare w2 ∗ owns (c : Thread nD τ) arg6 fullShare b
                ∗ (∃ f, arg8.view.loc (c : Thread nD τ) ↦[arg8.view.set]{fullShare} arg8.view.writes (Elt F) f LA)
                ∗ (∃ f, arg9.view.loc (c : Thread nD τ) ↦[arg9.view.set]{fullShare} arg9.view.writes (Elt F) f LR)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%fa, %hfa, HA⟩, ⟨%dr, %fr, -, HR⟩, Hk⟩
    obtain rfl := harg3.eq_unread hf0; obtain rfl := harg5.eq_unread hf1; obtain rfl := harg6.eq_unread hf2
    obtain rfl := harg8.eq_unread hfa
    sl_exec (disch := first | exact h1 | exact h2 | exact h3 | exact h4)
    sl_step
    iapply Hk
    isplitl [H0]
    · iexists _; isplitr; · ipureintro; exact harg3.read_unread _
      iexact H0
    isplitl [H1]
    · iexists _; isplitr; · ipureintro; exact harg5.read_unread _
      iexact H1
    isplitl [H2]
    · iexists _; isplitr; · ipureintro; exact harg6.read_unread _
      iexact H2
    isplitl [HA]
    · iexists _; iexact HA
    iexists _; iexact HR

end Cert.KernelIdeal.Fused

end
-- ==== Proof.KI.StepProduct.lean ====
/-
  Steps 2 and 3 of a batch, run on any whole buffers: a block of 1024 rows of x1 is multiplied by W1ᵀ and the
  batch's bias row is added to every row of the product; the result block is stored whole. The body reads the
  x1 block and the W1ᵀ block, finds the bias row at what step 1 left (`row`) and leaves it there, and finds the
  result's buffer at anything.
-/
import proofs.«168540_j82446192214445_2_alg».proof.Proof.KI.StepBias

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces a product step leaves in the result's buffer, with the body's triple. -/
noncomputable def stepProduct (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024x1024 .f32) (harg7 : arg7.IsWhole) (arg8 : Memref sig .tc .vmem S1x1024 .f32) (harg8 : arg8.IsWhole) (arg9 : Memref sig .tc .vmem S1x1024 .f32) (harg9 : arg9.IsWhole)
    (h1 : ¬atClear i) (h2 : ¬inSum i) (h3 : ¬atBias i) (h4 : inProduct i)
    (x1 : Vec F S1x1024x1024 .f32) (w1 : Vec F S1024x1024 .bf16) (row : Vec F S1x1024 .f32) :
    { LO : List (View.Piece (Elt F) S1x1024x1024 .f32) //
      ∀ (E : Set ℕ) (K : PUnit → sProp 𝕄),
        iprop(owns (c : Thread nD τ) arg2 fullShare x1 ∗ owns (c : Thread nD τ) arg4 fullShare w1
            ∗ owns (c : Thread nD τ) arg9 fullShare row ∗ (∃ d, owns (c : Thread nD τ) arg7 fullShare d)
            ∗ (iprop(owns (c : Thread nD τ) arg2 fullShare x1 ∗ owns (c : Thread nD τ) arg4 fullShare w1
                ∗ owns (c : Thread nD τ) arg9 fullShare row
                ∗ (∃ f, arg7.view.loc (c : Thread nD τ) ↦[arg7.view.set]{fullShare} arg7.view.writes (Elt F) f LO)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%fr, %hfr, HR⟩, ⟨%do_, %fo, -, HO⟩, Hk⟩
    obtain rfl := harg2.eq_unread hf0; obtain rfl := harg4.eq_unread hf1; obtain rfl := harg9.eq_unread hfr
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg4.read_unread _
      iexact H1
    isplitl [HR]
    · iexists _; isplitr; · ipureintro; exact harg9.read_unread _
      iexact HR
    iexists _; iexact HO

end Cert.KernelIdeal.Fused

end
-- ==== Proof.KI.Carried.lean ====
/-
  The frame of the fused kernel: the proof data of its pipeline, the invariant its two scratch buffers carry
  through the four steps of a batch, the body's obligation at every point, and the run.

  What is remembered between points. Before step 0 of a batch nothing: both scratch buffers hold anything.
  After step 0 the accumulator holds the column sums of the first half of the batch's rows of x2 (`accOf`).
  After step 1 the bias row holds (sums / 2048)·W2ᵀ + b (`rowOf`), which steps 2 and 3 read and leave in place;
  the accumulator is no longer needed and is forgotten. After step 3 everything is forgotten again.
  The result's block is stored only in steps 2 and 3 (`outOf`) and is written back exactly there.
-/
import proofs.«168540_j82446192214445_2_alg».proof.Proof.KI.StepProduct

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N32 : cfg0.N = 32 := N_0

/-! ## What each step leaves -/

/-- The accumulator after step 0 at point `s`: that step's pieces read back. -/
def accOf (c : Dev nD) (s : Fin cfg0.N) (h : s.val % 4 = 0) : Vec F S1x1024 .f32 :=
  vAcc.read (Elt F) (vAcc.writes (Elt F) vAcc.junk
    (stepClear c (grid0.coords s) (mX1 s) (hX1 s) (mX2 s) (hX2 s) (mW1 s) (hW1 s) (mW2 s) (hW2 s) (mB s) (hB s) (mOut s) (hOut s) mAcc (Memref.isWhole_whole _) mRow (Memref.isWhole_whole _) ((atClear_iff s).mpr h) ((inSum_iff s).mpr (by omega)) (fun h' => by have := (atBias_iff s).mp h'; omega) (fun h' => by have := (inProduct_iff s).mp h'; omega) (iblk m c 1 s)).1)

theorem accOf_congr (c : Dev nD) {s s' : Fin cfg0.N} (e : s = s') (h : s.val % 4 = 0) (h' : s'.val % 4 = 0) :
    accOf m c s h = accOf m c s' h' := by subst e; rfl

/-- Step 0's pieces cover the accumulator (each store writes all of it). -/
theorem accCover (c : Dev nD) (s : Fin cfg0.N) (h : s.val % 4 = 0) (y : S1x1024.Idx) :
    ∃ pc ∈ (stepClear c (grid0.coords s) (mX1 s) (hX1 s) (mX2 s) (hX2 s) (mW1 s) (hW1 s) (mW2 s) (hW2 s) (mB s) (hB s) (mOut s) (hOut s) mAcc (Memref.isWhole_whole _) mRow (Memref.isWhole_whole _) ((atClear_iff s).mpr h) ((inSum_iff s).mpr (by omega)) (fun h' => by have := (atBias_iff s).mp h'; omega) (fun h' => by have := (inProduct_iff s).mp h'; omega) (iblk m c 1 s)).1, y ∈ pc.1.set :=
  View.cover_of_tiledL _ S1x1024.size (by sl_kernel_rfl) y

/-- The point of step 0 of the batch of point `s`. -/
abbrev clearPt (s : Fin cfg0.N) : Fin cfg0.N := ⟨4 * (s.val / 4), by have := s.isLt; have := N32; omega⟩
/-- The point of step 1 of the batch of point `s`. -/
abbrev biasPt (s : Fin cfg0.N) (h : s.val % 4 ≠ 0) : Fin cfg0.N := ⟨4 * (s.val / 4) + 1, by have := s.isLt; have := N32; omega⟩

/-- The bias row after step 1 at point `s`: that step's pieces for it read back, the accumulator found at what
    step 0 of the same batch left. -/
def rowOf (c : Dev nD) (s : Fin cfg0.N) (h : s.val % 4 = 1) : Vec F S1x1024 .f32 :=
  vRow.read (Elt F) (vRow.writes (Elt F) vRow.junk
    (stepBias c (grid0.coords s) (mX1 s) (hX1 s) (mX2 s) (hX2 s) (mW1 s) (hW1 s) (mW2 s) (hW2 s) (mB s) (hB s) (mOut s) (hOut s) mAcc (Memref.isWhole_whole _) mRow (Memref.isWhole_whole _) (fun h' => by have := (atClear_iff s).mp h'; omega) ((inSum_iff s).mpr (by omega)) ((atBias_iff s).mpr h) (fun h' => by have := (inProduct_iff s).mp h'; omega) (iblk m c 1 s) (iblk m c 3 s) (iblk m c 4 s)
      (accOf m c (clearPt s) (Nat.mul_mod_right 4 _))).2.1)

theorem rowOf_congr (c : Dev nD) {s s' : Fin cfg0.N} (e : s = s') (h : s.val % 4 = 1) (h' : s'.val % 4 = 1) :
    rowOf m c s h = rowOf m c s' h' := by subst e; rfl

theorem rowCover (c : Dev nD) (s : Fin cfg0.N) (h : s.val % 4 = 1) (y : S1x1024.Idx) :
    ∃ pc ∈ (stepBias c (grid0.coords s) (mX1 s) (hX1 s) (mX2 s) (hX2 s) (mW1 s) (hW1 s) (mW2 s) (hW2 s) (mB s) (hB s) (mOut s) (hOut s) mAcc (Memref.isWhole_whole _) mRow (Memref.isWhole_whole _) (fun h' => by have := (atClear_iff s).mp h'; omega) ((inSum_iff s).mpr (by omega)) ((atBias_iff s).mpr h) (fun h' => by have := (inProduct_iff s).mp h'; omega) (iblk m c 1 s) (iblk m c 3 s) (iblk m c 4 s)
      (accOf m c (clearPt s) (Nat.mul_mod_right 4 _))).2.1, y ∈ pc.1.set :=
  View.cover_of_tiledL _ S1x1024.size (by sl_kernel_rfl) y

/-- The batch's bias row as steps 2 and 3 at point `s` find it. -/
abbrev rowFor (c : Dev nD) (s : Fin cfg0.N) (h : s.val % 4 ≠ 0) : Vec F S1x1024 .f32 :=
  rowOf m c (biasPt s h) (by show (4 * (s.val / 4) + 1) % 4 = 1; omega)

/-- The result's block after a product step at point `s`: that step's pieces read back. -/
def outOf (c : Dev nD) (s : Fin cfg0.N) (h : 2 ≤ s.val % 4) : Vec F S1x1024x1024 .f32 :=
  vOut.read (Elt F) (vOut.writes (Elt F) vOut.junk
    (stepProduct c (grid0.coords s) (mX1 s) (hX1 s) (mX2 s) (hX2 s) (mW1 s) (hW1 s) (mW2 s) (hW2 s) (mB s) (hB s) (mOut s) (hOut s) mAcc (Memref.isWhole_whole _) mRow (Memref.isWhole_whole _) (fun h' => by have := (atClear_iff s).mp h'; omega) (fun h' => by have := (inSum_iff s).mp h'; omega) (fun h' => by have := (atBias_iff s).mp h'; omega) ((inProduct_iff s).mpr h) (iblk m c 0 s) (iblk m c 2 s)
      (rowFor m c s (by omega))).1)

theorem outCover (c : Dev nD) (s : Fin cfg0.N) (h : 2 ≤ s.val % 4) (y : S1x1024x1024.Idx) :
    ∃ pc ∈ (stepProduct c (grid0.coords s) (mX1 s) (hX1 s) (mX2 s) (hX2 s) (mW1 s) (hW1 s) (mW2 s) (hW2 s) (mB s) (hB s) (mOut s) (hOut s) mAcc (Memref.isWhole_whole _) mRow (Memref.isWhole_whole _) (fun h' => by have := (atClear_iff s).mp h'; omega) (fun h' => by have := (inSum_iff s).mp h'; omega) (fun h' => by have := (atBias_iff s).mp h'; omega) ((inProduct_iff s).mpr h) (iblk m c 0 s) (iblk m c 2 s)
      (rowFor m c s (by omega))).1, y ∈ pc.1.set :=
  View.cover_of_tiledL _ S1x1024x1024.size (by sl_kernel_rfl) y

/-- What the result's staging buffer holds after the body at point `t`: the product step's block; at a summing
    step nothing is stored, the window is idle and not written back, and this value is never consulted. -/
def outAt (c : Dev nD) (t : Fin cfg0.N) : Vec F S1x1024x1024 .f32 :=
  if h : 2 ≤ t.val % 4 then outOf m c t h else vOut.read (Elt F) vOut.junk

theorem outAt_product (c : Dev nD) (t : Fin cfg0.N) (h : 2 ≤ t.val % 4) : outAt m c t = outOf m c t h := dif_pos h

/-! ## What the scratch buffers carry -/

/-- The invariant before position `n`, by the step `n % 4` about to run. -/
def carried (c : Dev nD) (n : ℕ) (hn : n ≤ cfg0.N) : sProp 𝕄 :=
  if h0 : n % 4 = 0 then Pipeline.ΦA spec0 c
  else if h1 : n % 4 = 1 then
    iprop(iprop(owns (c : Thread nD τ) mAcc fullShare (accOf m c ⟨4 * (n / 4), by have := N32; omega⟩ (Nat.mul_mod_right 4 _))
      ∗ (∃ d, owns (c : Thread nD τ) mRow fullShare d)) ∗ (∃ r, prngReg c r))
  else
    iprop(iprop((∃ d, owns (c : Thread nD τ) mAcc fullShare d)
      ∗ owns (c : Thread nD τ) mRow fullShare (rowOf m c ⟨4 * (n / 4) + 1, by have := N32; omega⟩ (by show (4 * (n / 4) + 1) % 4 = 1; omega))) ∗ (∃ r, prngReg c r))

theorem carried_start (c : Dev nD) (n : ℕ) (hn : n ≤ cfg0.N) (h0 : n % 4 = 0) : carried m c n hn = Pipeline.ΦA spec0 c := dif_pos h0

theorem carried_sums (c : Dev nD) (n : ℕ) (hn : n ≤ cfg0.N) (h1 : n % 4 = 1) :
    carried m c n hn = iprop(iprop(owns (c : Thread nD τ) mAcc fullShare (accOf m c ⟨4 * (n / 4), by have := N32; omega⟩ (Nat.mul_mod_right 4 _))
      ∗ (∃ d, owns (c : Thread nD τ) mRow fullShare d)) ∗ (∃ r, prngReg c r)) :=
  (dif_neg (by omega)).trans (dif_pos h1)

theorem carried_row (c : Dev nD) (n : ℕ) (hn : n ≤ cfg0.N) (h2 : 2 ≤ n % 4) :
    carried m c n hn = iprop(iprop((∃ d, owns (c : Thread nD τ) mAcc fullShare d)
      ∗ owns (c : Thread nD τ) mRow fullShare (rowOf m c ⟨4 * (n / 4) + 1, by have := N32; omega⟩ (by show (4 * (n / 4) + 1) % 4 = 1; omega))) ∗ (∃ r, prngReg c r)) :=
  (dif_neg (by omega)).trans (dif_neg (by omega))

/-! ## The pipeline's proof data -/

/-- On core `c`: the arrays as the region finds them; after the body every input's buffer still at its block, the
    result's at `outAt`; the invariant `carried`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem carried_succ (c : Dev nD) (t : Fin cfg0.N) :
    (dats m 0 c).Φ t.succ = carried m c (t.val + 1) t.isLt := rfl

theorem after_x1 (c : Dev nD) (t : Fin cfg0.N) : (dats m 0 c).after 0 t = iblk m c 0 t := by dsimp only [dats]
theorem after_x2 (c : Dev nD) (t : Fin cfg0.N) : (dats m 0 c).after 1 t = iblk m c 1 t := by dsimp only [dats]
theorem after_w1 (c : Dev nD) (t : Fin cfg0.N) : (dats m 0 c).after 2 t = iblk m c 2 t := by dsimp only [dats]
theorem after_w2 (c : Dev nD) (t : Fin cfg0.N) : (dats m 0 c).after 3 t = iblk m c 3 t := by dsimp only [dats]
theorem after_b (c : Dev nD) (t : Fin cfg0.N) : (dats m 0 c).after 4 t = iblk m c 4 t := by dsimp only [dats]
theorem after_out (c : Dev nD) (t : Fin cfg0.N) : (dats m 0 c).after 5 t = outAt m c t := by dsimp only [dats]

/-- Each input's current staging buffer holds its block at every point, fetched there or not. -/
theorem before_x1 (c : Dev nD) (t : Fin cfg0.N) (d) : (dats m 0 c).before 0 t d = iblk m c 0 t :=
  before0_0_of m (dats m 0 c) (A_eq m c 0) (after_x1 m c) t d
theorem before_x2 (c : Dev nD) (t : Fin cfg0.N) (d) : (dats m 0 c).before 1 t d = iblk m c 1 t :=
  before0_1_of m (dats m 0 c) (A_eq m c 1) (after_x2 m c) t d
theorem before_w1 (c : Dev nD) (t : Fin cfg0.N) (d) : (dats m 0 c).before 2 t d = iblk m c 2 t :=
  before0_2_of m (dats m 0 c) (A_eq m c 2) (after_w1 m c) t d
theorem before_w2 (c : Dev nD) (t : Fin cfg0.N) (d) : (dats m 0 c).before 3 t d = iblk m c 3 t :=
  before0_3_of m (dats m 0 c) (A_eq m c 3) (after_w2 m c) t d
theorem before_b (c : Dev nD) (t : Fin cfg0.N) (d) : (dats m 0 c).before 4 t d = iblk m c 4 t :=
  before0_4_of m (dats m 0 c) (A_eq m c 4) (after_b m c) t d

/-- The inputs are never idle: the body hands each buffer back at its block. -/
theorem leaves_x1 (c : Dev nD) (t : Fin cfg0.N) : (dats m 0 c).leavesExact 0 t = owns (c : Thread nD τ) (mX1 t) fullShare (iblk m c 0 t) := by
  unfold Dat.leavesExact; rw [live_x1 t, after_x1]
theorem leaves_x2 (c : Dev nD) (t : Fin cfg0.N) : (dats m 0 c).leavesExact 1 t = owns (c : Thread nD τ) (mX2 t) fullShare (iblk m c 1 t) := by
  unfold Dat.leavesExact; rw [live_x2 t, after_x2]
theorem leaves_w1 (c : Dev nD) (t : Fin cfg0.N) : (dats m 0 c).leavesExact 2 t = owns (c : Thread nD τ) (mW1 t) fullShare (iblk m c 2 t) := by
  unfold Dat.leavesExact; rw [live_w1 t, after_w1]
theorem leaves_w2 (c : Dev nD) (t : Fin cfg0.N) : (dats m 0 c).leavesExact 3 t = owns (c : Thread nD τ) (mW2 t) fullShare (iblk m c 3 t) := by
  unfold Dat.leavesExact; rw [live_w2 t, after_w2]
theorem leaves_b (c : Dev nD) (t : Fin cfg0.N) : (dats m 0 c).leavesExact 4 t = owns (c : Thread nD τ) (mB t) fullShare (iblk m c 4 t) := by
  unfold Dat.leavesExact; rw [live_b t, after_b]

end Cert.KernelIdeal.Fused

end
-- ==== Proof.KI.Body.lean ====
/-
  The body's obligation at every point of the grid, by the step the point is, and from it the run of the whole
  program and its frame: it terminates, faults nowhere, and leaves the argument arrays as they were.
-/
import proofs.«168540_j82446192214445_2_alg».proof.Proof.KI.Carried

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mX1 t) fullShare ((dats m 0 c).before 0 t d))
    ∗ (∃ d, owns (c : Thread nD τ) (mX2 t) fullShare ((dats m 0 c).before 1 t d))
    ∗ (∃ d, owns (c : Thread nD τ) (mW1 t) fullShare ((dats m 0 c).before 2 t d))
    ∗ (∃ d, owns (c : Thread nD τ) (mW2 t) fullShare ((dats m 0 c).before 3 t d))
    ∗ (∃ d, owns (c : Thread nD τ) (mB t) fullShare ((dats m 0 c).before 4 t d))
    ∗ (∃ d, owns (c : Thread nD τ) (mOut t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The inputs' buffers hold their blocks; the step `t % 4` says which conditionals hold,
    so that step's run applies; the invariant hands the run the scratch contents it reads and takes back what it
    leaves; in the summing steps the result's buffer goes back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x1, before_x2, before_w1, before_w2, before_b]
  rw [show (dats m 0 c).owesAt () t.succ = (dats m 0 c).owesAt () t.castSucc from rfl]
  rw [carried_castSucc, carried_succ, leaves_x1, leaves_x2, leaves_w1, leaves_w2, leaves_b]
  have hN : t.val < 32 := lt_of_lt_of_eq t.isLt N32
  by_cases h0 : t.val % 4 = 0
  · -- step 0: clear, then sum the first half
    have hP : ¬inProduct (grid0.coords t) := fun h' => by have := (inProduct_iff t).mp h'; omega
    rw [Dat.leavesExact_idle (dats m 0 c) 5 t (idle_out t hP) (noFlush_out t hP)]
    rw [carried_start m c _ _ h0, restAny_eq, carried_sums m c (t.val + 1) _ (by omega)]
    rw [accOf_congr m c (s' := t) (Fin.ext (by show 4 * ((t.val + 1) / 4) = t.val; omega)) _ h0]
    unfold accOf; (try dsimp only)
    iintro ⟨⟨⟨HA, HR⟩, Hg⟩, Ho, ⟨%d0, H0⟩, ⟨%d1, H1⟩, ⟨%d2, H2⟩, ⟨%d3, H3⟩, ⟨%d4, H4⟩, ⟨%d5, H5⟩⟩
    iapply ((stepClear c (grid0.coords t) _ _ _ _ _ _ _ _ _ _ _ _ _ _ _ _ ((atClear_iff t).mpr h0) ((inSum_iff t).mpr (by omega)) (fun h' => by have := (atBias_iff t).mp h'; omega) hP (iblk m c 1 t)).2 Set.univ _)
    isplitl [H1]; · iexact H1
    isplitl [HA]; · iexact HA
    iintro ⟨H1, ⟨%ea, HA⟩⟩
    isplitl [HA HR Hg]
    · isplitl [HA HR]
      · isplitl [HA]
        · unfold owns; iexists _; isplitr
          swap; · iexact HA
          ipureintro; exact View.read_writes_of_cover _ _ _ _ _ (accCover m c t h0)
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val % 4 = 1
    · -- step 1: sum the second half, then the bias row
      have hP : ¬inProduct (grid0.coords t) := fun h' => by have := (inProduct_iff t).mp h'; omega
      rw [Dat.leavesExact_idle (dats m 0 c) 5 t (idle_out t hP) (noFlush_out t hP)]
      rw [carried_sums m c _ _ h1, carried_row m c (t.val + 1) _ (by omega)]
      rw [rowOf_congr m c (s' := t) (Fin.ext (by show 4 * ((t.val + 1) / 4) + 1 = t.val; omega)) _ h1]
      unfold rowOf; (try dsimp only)
      iintro ⟨⟨⟨HA, HR⟩, Hg⟩, Ho, ⟨%d0, H0⟩, ⟨%d1, H1⟩, ⟨%d2, H2⟩, ⟨%d3, H3⟩, ⟨%d4, H4⟩, ⟨%d5, H5⟩⟩
      iapply ((stepBias c (grid0.coords t) _ _ _ _ _ _ _ _ _ _ _ _ _ _ _ _ (fun h' => by have := (atClear_iff t).mp h'; omega) ((inSum_iff t).mpr (by omega)) ((atBias_iff t).mpr h1) hP (iblk m c 1 t) (iblk m c 3 t) (iblk m c 4 t) _).2.2 Set.univ _)
      isplitl [H1]; · iexact H1
      isplitl [H3]; · iexact H3
      isplitl [H4]; · iexact H4
      isplitl [HA]; · iexact HA
      isplitl [HR]; · iexact HR
      iintro ⟨H1, H3, H4, ⟨%ea, HA⟩, ⟨%er, HR⟩⟩
      isplitl [HA HR Hg]
      · isplitl [HA HR]
        · isplitl [HA]
          · iexists _; unfold owns; iexists _; isplitr
            swap; · iexact HA
            ipureintro; rfl
          unfold owns; iexists _; isplitr
          swap; · iexact HR
          ipureintro; exact View.read_writes_of_cover _ _ _ _ _ (rowCover m c t h1)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · -- steps 2 and 3: a block of rows of the result
      have h2 : 2 ≤ t.val % 4 := by omega
      have hP : inProduct (grid0.coords t) := (inProduct_iff t).mpr h2
      rw [show (dats m 0 c).leavesExact 5 t = owns (c : Thread nD τ) (mOut t) fullShare ((dats m 0 c).after 5 t) from by
        unfold Dat.leavesExact; rw [live_out t hP], after_out, outAt_product m c t h2]
      rw [carried_row m c _ _ h2]
      rw [rowOf_congr m c (s' := biasPt t (by omega)) rfl _ (by show (4 * (t.val / 4) + 1) % 4 = 1; omega)]
      unfold outOf; (try dsimp only)
      by_cases h3 : t.val % 4 = 2
      · rw [carried_row m c (t.val + 1) _ (by omega)]
        rw [rowOf_congr m c (s := ⟨4 * ((t.val + 1) / 4) + 1, _⟩) (s' := biasPt t (by omega)) (Fin.ext (by show 4 * ((t.val + 1) / 4) + 1 = 4 * (t.val / 4) + 1; omega)) _ (by show (4 * (t.val / 4) + 1) % 4 = 1; omega)]
        iintro ⟨⟨⟨HA, HR⟩, Hg⟩, Ho, ⟨%d0, H0⟩, ⟨%d1, H1⟩, ⟨%d2, H2⟩, ⟨%d3, H3⟩, ⟨%d4, H4⟩, ⟨%d5, H5⟩⟩
        iapply ((stepProduct c (grid0.coords t) _ _ _ _ _ _ _ _ _ _ _ _ _ _ _ _ (fun h' => by have := (atClear_iff t).mp h'; omega) (fun h' => by have := (inSum_iff t).mp h'; omega) (fun h' => by have := (atBias_iff t).mp h'; omega) hP (iblk m c 0 t) (iblk m c 2 t) _).2 Set.univ _)
        isplitl [H0]; · iexact H0
        isplitl [H2]; · iexact H2
        isplitl [HR]; · iexact HR
        isplitl [H5]; · iexists _; iexact H5
        iintro ⟨H0, H2, HR, ⟨%eo, H5⟩⟩
        isplitl [HA HR Hg]
        · isplitl [HA HR]
          · isplitl [HA]; · iexact HA
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (outCover m c t h2)
      · rw [carried_start m c (t.val + 1) _ (by omega), restAny_eq]
        iintro ⟨⟨⟨HA, HR⟩, Hg⟩, Ho, ⟨%d0, H0⟩, ⟨%d1, H1⟩, ⟨%d2, H2⟩, ⟨%d3, H3⟩, ⟨%d4, H4⟩, ⟨%d5, H5⟩⟩
        iapply ((stepProduct c (grid0.coords t) _ _ _ _ _ _ _ _ _ _ _ _ _ _ _ _ (fun h' => by have := (atClear_iff t).mp h'; omega) (fun h' => by have := (inSum_iff t).mp h'; omega) (fun h' => by have := (atBias_iff t).mp h'; omega) hP (iblk m c 0 t) (iblk m c 2 t) _).2 Set.univ _)
        isplitl [H0]; · iexact H0
        isplitl [H2]; · iexact H2
        isplitl [HR]; · iexact HR
        isplitl [H5]; · iexists _; iexact H5
        iintro ⟨H0, H2, HR, ⟨%eo, H5⟩⟩
        isplitl [HA HR Hg]
        · isplitl [HA HR]
          · isplitl [HA]; · iexact HA
            iexists _; iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (outCover m c t h2)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem carried_in (c : Dev nD) : Pipeline.ΦA spec0 c ⊢ (dats m 0 c).Φ 0 := by
  rw [show (dats m 0 c).Φ 0 = carried m c 0 (Nat.zero_le _) from rfl, carried_start m c 0 _ rfl]
  try exact Idealize.SL.BI.Entails.refl _

/-- After the last point the invariant is again that nothing is remembered. -/
theorem carried_out (c : Dev nD) : (dats m 0 c).Φ (Fin.last cfg0.N) ⊢ Pipeline.ΦA spec0 c := by
  rw [show (dats m 0 c).Φ (Fin.last cfg0.N) = carried m c cfg0.N (Nat.le_refl _) from rfl,
    carried_start m c _ _ (by rw [N32])]
  try exact Idealize.SL.BI.Entails.refl _

set_option backward.isDefEq.respectTransparency.types false in
/-- Every weakly fair execution of the program terminates, and every final state has each array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

/-- The frame of the program, at any reading of the floats: it runs to the end and its four argument arrays end
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fused

end
-- ==== Proof.KI.Pieces.lean ====
/-
  What each step leaves, as the body's arithmetic: the pieces the runs found are single whole-buffer stores (in
  step 0 the clearing store lies under the summing store and is read back by it), so each buffer ends at the
  payload of its last store, applied to the blocks the step loaded.
-/
import proofs.«168540_j82446192214445_2_alg».proof.Proof.KI.Carried
import Idealize.ShloMosaic.Lib.Pipeline.Value

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem off2 : (![0, 0] : Fin 2 → Nat) = fun _ => 0 := funext fun a => by fin_cases a <;> rfl
theorem off3 : (![0, 0, 0] : Fin 3 → Nat) = fun _ => 0 := funext fun a => by fin_cases a <;> rfl

/-- After step 0 the accumulator holds the cleared accumulator plus the column sums of the step's block of x2. -/
theorem accOf_eq (c : Dev nD) (s : Fin cfg0.N) (h : s.val % 4 = 0) :
    accOf m c s h = k0_pay2 (iblk m c 1 s) (k0_pay1 (F := F)) := by
  unfold accOf
  rw [View.read_writes_eq_canon _ _ _ (accCover m c s h)]
  unfold stepClear
  dsimp only
  try sl_unfold_words
  rw [View.canon_cons_unit_zero off2, View.readCov_unit_zero (S := S1x1024) _ off2]
  simp only [View.readAt_eq_ld, (hX2 s).read_unread, View.ld_unit_zero (S := S1x1024x1024) off3]

/-- After step 1 the bias row holds the mean of the batch's rows of x2 times W2ᵀ, plus b: the payload of the
    row's store, applied to the accumulator as step 1 itself left it. -/
theorem rowOf_eq (c : Dev nD) (s : Fin cfg0.N) (h : s.val % 4 = 1) :
    rowOf m c s h = k0_pay3 (k0_pay2 (iblk m c 1 s) (accOf m c (clearPt s) (Nat.mul_mod_right 4 _))) (iblk m c 3 s) (iblk m c 4 s) := by
  unfold rowOf
  rw [View.read_writes_eq_canon _ _ _ (rowCover m c s h)]
  unfold stepBias
  dsimp only
  try sl_unfold_words
  rw [View.canon_unit_zero off2, View.readCov_unit_zero (S := S1x1024) _ off2]
  simp only [View.readAt_eq_ld, (hX2 s).read_unread, (hW2 s).read_unread, (hB s).read_unread,
    (Memref.isWhole_whole cc0_scratch0).read_unread,
    View.ld_unit_zero (S := S1x1024x1024) off3, View.ld_unit_zero (S := S1x1024) off2, View.ld_unit_zero (S := S1024x1024) off2]

/-- After a product step the result's block holds the block of x1 times W1ᵀ with the bias row added to every row. -/
theorem outOf_eq (c : Dev nD) (s : Fin cfg0.N) (h : 2 ≤ s.val % 4) :
    outOf m c s h = k0_pay4 (iblk m c 0 s) (iblk m c 2 s) (rowFor m c s (by omega)) := by
  unfold outOf
  rw [View.read_writes_eq_canon _ _ _ (outCover m c s h)]
  unfold stepProduct
  dsimp only
  try sl_unfold_words
  rw [View.canon_unit_zero off3]
  simp only [View.readAt_eq_ld, (hX1 s).read_unread, (hW1 s).read_unread,
    (Memref.isWhole_whole cc0_scratch1).read_unread,
    View.ld_unit_zero (S := S1x1024x1024) off3, View.ld_unit_zero (S := S1x1024) off2, View.ld_unit_zero (S := S1024x1024) off2]

end Cert.KernelIdeal.Fused

end
-- ==== Proof.Spec.lean ====
/-
  The mathematics of the claim, with no program in sight.

  For a batch `p`, a row `r` and an output feature `e` the kernel produces

      Σ_k x1[p,r,k]·W[e,k]  +  ( Σ_k ((0 + Σ_{j<1024} x2[p,j,k]) + Σ_{j<1024} x2[p,1024+j,k]) · 2⁻¹¹ · W[e,1024+k]  +  b[e] )

  (the column sums of x2 accumulated half by half, scaled to a mean BEFORE the product with the second half of W's
  columns, the bias added to that row, and the row added to the product with the first half), while the reference
  produces

      ( Σ_k x1[p,r,k]·W[e,k]  +  ( Σ_k (0 + Σ_{j<2048} x2[p,j,k]) · W[e,1024+k] ) / 2048 )  +  b[e]

  (the column sums multiplied through first, the division by the number of rows after). On real numbers the two
  are equal: a sum over 2048 rows is the sum of its two halves, a constant factor moves across a finite sum, and
  dividing by 2048 is multiplying by 2⁻¹¹. On the extended reals moving a factor across a sum can fail at the
  infinities, so the law is stated for arrays all of whose entries are real numbers.
-/
import Idealize.ShloMosaic.PureOps.Ideal
import Idealize.ShloMosaic.PureOps.Ideal.Laws
import Idealize.ShloMosaic.Lib.ValueIdx

noncomputable section

namespace Cert.Fused.Spec

open Idealize.ShloMosaic Idealize.ShloMosaic.ValueIdx

/-- The arrays' shapes: x1, x2 and the result; W; b. -/
abbrev SX : Shape := ⟨3, ![8, 2048, 1024]⟩
abbrev SW : Shape := ⟨2, ![1024, 2048]⟩
abbrev SB : Shape := ⟨1, ![1024]⟩

/-- Row `j` of the first half of a batch's 2048 rows, and of the second half. -/
abbrev rowLo (j : Fin 1024) : Fin 2048 := ⟨j.val, by have := j.isLt; omega⟩
abbrev rowHi (j : Fin 1024) : Fin 2048 := ⟨1024 + j.val, by have := j.isLt; omega⟩
/-- Column `k` of the first half of W's 2048 columns (the part that meets x1), and of the second (x2's). -/
abbrev colLo (k : Fin 1024) : Fin 2048 := ⟨k.val, by have := k.isLt; omega⟩
abbrev colHi (k : Fin 1024) : Fin 2048 := ⟨1024 + k.val, by have := k.isLt; omega⟩

/-- The kernel's scale, the float 2⁻¹¹, and the reference's divisor, the float 2048. -/
abbrev scale : EReal := Ideal.ofBits .f32 0x3A000000#32
abbrev rows : EReal := Ideal.ofBits .f32 0x45000000#32
abbrev zero : EReal := Ideal.ofBits .f32 0x00000000#32

theorem scale_eq : scale = ((1 / 2048 : ℝ) : EReal) := by
  simp [scale, Ideal.ofBits, Ideal.ieee, -EReal.coe_mul]; norm_num
theorem rows_eq : rows = ((2048 : ℝ) : EReal) := by
  simp [rows, Ideal.ofBits, Ideal.ieee, -EReal.coe_mul]; norm_num
theorem zero_eq : zero = 0 := Ideal.ofBits_zero_f32

/-- The product of a row of x1 with the first half of a row of W. -/
def direct (x1 : SX.Idx → EReal) (W : SW.Idx → EReal) (i : SX.Idx) : EReal :=
  ∑ k : Fin 1024, x1 (ix3 (i 0) (i 1) k) * W (ix2 (i 2) (colLo k))

/-- What the kernel leaves at index `i` of the result. -/
def kernelSide (x1 x2 : SX.Idx → EReal) (W : SW.Idx → EReal) (b : SB.Idx → EReal) (i : SX.Idx) : EReal :=
  direct x1 W i
    + ((∑ k : Fin 1024, (((zero + ∑ j : Fin 1024, x2 (ix3 (i 0) (rowLo j) k)) + ∑ j : Fin 1024, x2 (ix3 (i 0) (rowHi j) k)) * scale)
          * W (ix2 (i 2) (colHi k)))
        + b (ix1 (i 2)))

/-- What the reference leaves there. -/
def refSide (x1 x2 : SX.Idx → EReal) (W : SW.Idx → EReal) (b : SB.Idx → EReal) (i : SX.Idx) : EReal :=
  (direct x1 W i
      + Ideal.div (∑ k : Fin 1024, (zero + ∑ j : Fin 2048, x2 (ix3 (i 0) j k)) * W (ix2 (i 2) (colHi k))) rows)
    + b (ix1 (i 2))

/-- A finite sum of real numbers, read in the extended reals, is the sum of the numbers read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 2048 rows is the sum over the first 1024 plus the sum over the last 1024. -/
theorem sum_halves (g : Fin 2048 → ℝ) : ∑ j : Fin 2048, g j = ∑ j : Fin 1024, g (rowLo j) + ∑ j : Fin 1024, g (rowHi j) := by
  have h := Fin.sum_univ_add (M := ℝ) (a := 1024) (b := 1024) (fun j => g j)
  exact h

/-- The law on real numbers: scaling each column sum before the product is dividing the product by 2048 after. -/
theorem real_law (A β : ℝ) (X : Fin 2048 → Fin 1024 → ℝ) (w : Fin 1024 → ℝ) :
    A + ((∑ k : Fin 1024, (((0 + ∑ j : Fin 1024, X (rowLo j) k) + ∑ j : Fin 1024, X (rowHi j) k) * (1 / 2048)) * w k) + β)
      = (A + (∑ k : Fin 1024, (0 + ∑ j : Fin 2048, X j k) * w k) * (1 / 2048)) + β := by
  have e : ∀ k : Fin 1024, (((0 + ∑ j : Fin 1024, X (rowLo j) k) + ∑ j : Fin 1024, X (rowHi j) k) * (1 / 2048)) * w k
      = ((0 + ∑ j : Fin 2048, X j k) * w k) * (1 / 2048) := fun k => by
    rw [sum_halves (fun j => X j k)]; ring
  rw [Finset.sum_congr rfl (fun k _ => e k), ← Finset.sum_mul]
  ring

/-- The law joining the two sides: on arrays of real numbers the kernel's value and the reference's are one. -/
theorem sides_eq (x1 x2 : SX.Idx → EReal) (W : SW.Idx → EReal) (b : SB.Idx → EReal)
    (h1 : ∀ j, ∃ r : ℝ, x1 j = (r : EReal)) (h2 : ∀ j, ∃ r : ℝ, x2 j = (r : EReal))
    (hW : ∀ j, ∃ r : ℝ, W j = (r : EReal)) (hb : ∀ j, ∃ r : ℝ, b j = (r : EReal)) (i : SX.Idx) :
    kernelSide x1 x2 W b i = refSide x1 x2 W b i := by
  choose X1 e1 using h1
  choose X2 e2 using h2
  choose Wr eW using hW
  choose Br eB using hb
  obtain rfl : x1 = fun j => (X1 j : EReal) := funext e1
  obtain rfl : x2 = fun j => (X2 j : EReal) := funext e2
  obtain rfl : W = fun j => (Wr j : EReal) := funext eW
  obtain rfl : b = fun j => (Br j : EReal) := funext eB
  unfold kernelSide refSide direct
  rw [scale_eq, rows_eq, zero_eq, Ideal.div_coe (by norm_num : (2048 : ℝ) ≠ 0)]
  have := real_law (∑ k : Fin 1024, X1 (ix3 (i 0) (i 1) k) * Wr (ix2 (i 2) (colLo k))) (Br (ix1 (i 2)))
    (fun j k => X2 (ix3 (i 0) j k)) (fun k => Wr (ix2 (i 2) (colHi k)))
  simp only [← EReal.coe_mul, ← coe_sum, ← EReal.coe_zero, ← EReal.coe_add]
  exact congrArg _ this

end Cert.Fused.Spec

end
-- ==== Proof.KI.Arith.lean ====
/-
  The body's arithmetic, entry by entry, when a float is an extended real and every operation is exact:
  the cleared accumulator is 0; a summing step adds to each column of the accumulator the sum of that column of
  its block of x2; the bias row at feature `e` is Σ_k (acc[k]·2⁻¹¹)·W2ᵀ[k,e] + b[e]; and a product step's block
  at row `p`, feature `e` is Σ_k x1[p,k]·W1ᵀ[k,e] + row[e]. Changes of float format are the identity.
-/
import proofs.«168540_j82446192214445_2_alg».proof.Proof.Gen.KernelIdeal.Skeleton
import proofs.«168540_j82446192214445_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fused

open Idealize.ShloMosaic Idealize.ShloMosaic.ValueIdx
open Cert.KernelIdeal Cert.KernelIdeal.Gen
open Cert.Fused

/-! ## The two matrix products as plain sums -/

theorem rowDot_lhs0 (i : S1x1024.Idx) (q : dot_S1x1024_S1024x1024_S1x1024_1_0_0_1_n_n.contr.Idx) : (dot_S1x1024_S1024x1024_S1x1024_1_0_0_1_n_n.lhsIdx i q 0).val = (i 0).val := by
  unfold DotDims.lhsIdx
  rw [dif_neg (show ¬(0 : Fin S1x1024.rank) ∈ dot_S1x1024_S1024x1024_S1x1024_1_0_0_1_n_n.lhsBatch by decide), dif_pos (show (0 : Fin S1x1024.rank) ∈ dot_S1x1024_S1024x1024_S1x1024_1_0_0_1_n_n.lhsNonContracting by decide)]
  rfl
theorem rowDot_lhs1 (i : S1x1024.Idx) (q : dot_S1x1024_S1024x1024_S1x1024_1_0_0_1_n_n.contr.Idx) : (dot_S1x1024_S1024x1024_S1x1024_1_0_0_1_n_n.lhsIdx i q 1).val = (q ⟨0, by decide⟩).val :=
  dot_S1x1024_S1024x1024_S1x1024_1_0_0_1_n_n.lhsIdx_val_of_single rfl i q
theorem rowDot_rhs0 (i : S1x1024.Idx) (q : dot_S1x1024_S1024x1024_S1x1024_1_0_0_1_n_n.contr.Idx) : (dot_S1x1024_S1024x1024_S1x1024_1_0_0_1_n_n.rhsIdx i q 0).val = (q ⟨0, by decide⟩).val :=
  dot_S1x1024_S1024x1024_S1x1024_1_0_0_1_n_n.rhsIdx_val_of_single rfl i q
theorem rowDot_rhs1 (i : S1x1024.Idx) (q : dot_S1x1024_S1024x1024_S1x1024_1_0_0_1_n_n.contr.Idx) : (dot_S1x1024_S1024x1024_S1x1024_1_0_0_1_n_n.rhsIdx i q 1).val = (i 1).val := by
  unfold DotDims.rhsIdx
  rw [dif_neg (show ¬(1 : Fin S1024x1024.rank) ∈ dot_S1x1024_S1024x1024_S1x1024_1_0_0_1_n_n.rhsBatch by decide), dif_pos (show (1 : Fin S1024x1024.rank) ∈ dot_S1x1024_S1024x1024_S1x1024_1_0_0_1_n_n.rhsNonContracting by decide)]
  rfl

/-- A row vector times a matrix, into the zero accumulator: at feature `e`, the sum over `k` of the products. -/
theorem rowDot_apply (l : FVec Ideal S1x1024 .bf16) (r : FVec Ideal S1024x1024 .bf16) (e : Fin 1024) :
    matmul (F := Ideal) dot_S1x1024_S1024x1024_S1x1024_1_0_0_1_n_n none l r (constant (F := Ideal) S1x1024 .f32 0x00000000#32) (ix2 (0 : Fin 1) e)
      = ∑ k : Fin 1024, l (ix2 (0 : Fin 1) k) * r (ix2 k e) := by
  simp only [matmul]
  rw [Ideal.matmul_constant_zero_apply, ← Equiv.sum_comp (ValueIdx.contrEquiv1 dot_S1x1024_S1024x1024_S1x1024_1_0_0_1_n_n 1024 rfl rfl).symm]
  refine Finset.sum_congr rfl fun k _ => ?_
  have hk := ValueIdx.contrEquiv1_symm_val dot_S1x1024_S1024x1024_S1x1024_1_0_0_1_n_n 1024 rfl rfl k
  have el : dot_S1x1024_S1024x1024_S1x1024_1_0_0_1_n_n.lhsIdx (ix2 (0 : Fin 1) e) ((ValueIdx.contrEquiv1 dot_S1x1024_S1024x1024_S1x1024_1_0_0_1_n_n 1024 rfl rfl).symm k) = ix2 (0 : Fin 1) k := funext fun a => Fin.ext (by
    match a with
    | ⟨0, _⟩ => exact rowDot_lhs0 _ _
    | ⟨1, _⟩ => exact (rowDot_lhs1 _ _).trans hk)
  have er : dot_S1x1024_S1024x1024_S1x1024_1_0_0_1_n_n.rhsIdx (ix2 (0 : Fin 1) e) ((ValueIdx.contrEquiv1 dot_S1x1024_S1024x1024_S1x1024_1_0_0_1_n_n 1024 rfl rfl).symm k) = ix2 k e := funext fun a => Fin.ext (by
    match a with
    | ⟨0, _⟩ => exact (rowDot_rhs0 _ _).trans hk
    | ⟨1, _⟩ => exact rowDot_rhs1 _ _)
  rw [el, er]

theorem blockDot_lhs0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem blockDot_lhs1 (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem blockDot_rhs0 (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem blockDot_rhs1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A block of rows times a matrix, into the zero accumulator: at row `p`, feature `e`, the sum over `k`. -/
theorem blockDot_apply (l : FVec Ideal S1024x1024 .bf16) (r : FVec Ideal S1024x1024 .bf16) (p e : Fin 1024) :
    matmul (F := Ideal) dot_S1024x1024_S1024x1024_S1024x1024_1_0_0_1_n_n none l r (constant (F := Ideal) S1024x1024 .f32 0x00000000#32) (ix2 p e)
      = ∑ k : Fin 1024, l (ix2 p k) * r (ix2 k e) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p e) ((ValueIdx.contrEquiv1 dot_S1024x1024_S1024x1024_S1024x1024_1_0_0_1_n_n 1024 rfl rfl).symm k) = ix2 p k := funext fun a => Fin.ext (by
    match a with
    | ⟨0, _⟩ => exact blockDot_lhs0 _ _
    | ⟨1, _⟩ => exact (blockDot_lhs1 _ _).trans hk)
  have er : dot_S1024x1024_S1024x1024_S1024x1024_1_0_0_1_n_n.rhsIdx (ix2 p e) ((ValueIdx.contrEquiv1 dot_S1024x1024_S1024x1024_S1024x1024_1_0_0_1_n_n 1024 rfl rfl).symm k) = ix2 k e := funext fun a => Fin.ext (by
    match a with
    | ⟨0, _⟩ => exact (blockDot_rhs0 _ _).trans hk
    | ⟨1, _⟩ => exact blockDot_rhs1 _ _)
  rw [el, er]

/-! ## The column sums -/

/-- The sum of a 1024×1024 block over its rows, at column `k`. -/
theorem colSum_apply (x : FVec Ideal S1024x1024 .f32) (hφ : FKind.Formats .f32)
    (hacc : (0x00000000#32 : BitVec FTy.f32.bits) = FKind.add.neutral .f32 hφ) (k : Fin 1024) :
    multiReduction (F := Ideal) .add [0] S1024 x 0x00000000#32 Gen.reduces_S1024x1024_S1024 hφ hacc (ix1 k)
      = ∑ j : Fin 1024, x (ix2 j k) :=
  (Ideal.multiReduction_add_single x 0x00000000#32 Gen.reduces_S1024x1024_S1024 hφ hacc (ix1 k)).trans
    (Finset.sum_congr rfl fun j _ => congrArg x (funext fun a => Fin.ext (by match a with | ⟨0, _⟩ => rfl | ⟨1, _⟩ => rfl)))

/-! ## The four stores' payloads at an index -/

/-- The cleared accumulator is zero everywhere. -/
theorem clear_apply (y : S1x1024.Idx) : k0_pay1 (F := Ideal) y = Spec.zero := by
  unfold k0_pay1
  simp only [shapeCast_self]
  rfl

/-- A summing step: the accumulator plus the block's column sums. -/
theorem sum_apply (x : Vec Ideal S1x1024x1024 .f32) (acc : Vec Ideal S1x1024 .f32) (k : Fin 1024) :
    k0_pay2 x acc (ix2 (0 : Fin 1) k) = acc (ix2 (0 : Fin 1) k) + ∑ j : Fin 1024, x (ix3 (0 : Fin 1) j k) := by
  unfold k0_pay2
  simp only [shapeCast_self, addf_apply, shapeCast_a_1a_apply]
  refine congrArg (acc (ix2 (0 : Fin 1) k) + ·) ?_
  refine (colSum_apply _ _ _ k).trans ?_
  exact Finset.sum_congr rfl fun j _ => shapeCast_1ab_ab_apply x _ j k

/-- The bias row: the scaled sums times W2ᵀ, plus b. -/
theorem bias_apply (acc : Vec Ideal S1x1024 .f32) (w2 : Vec Ideal S1024x1024 .bf16) (b : Vec Ideal S1x1024 .f32) (e : Fin 1024) :
    k0_pay3 acc w2 b (ix2 (0 : Fin 1) e)
      = (∑ k : Fin 1024, (acc (ix2 (0 : Fin 1) k) * Spec.scale) * w2 (ix2 k e)) + b (ix2 (0 : Fin 1) e) := by
  unfold k0_pay3
  simp only [shapeCast_self, addf_apply, rowDot_apply, truncf_apply, mulf_apply, broadcast_apply]
  rfl

/-- A product step: the block of x1 times W1ᵀ, plus the bias row on every row. -/
theorem product_apply (x1 : Vec Ideal S1x1024x1024 .f32) (w1 : Vec Ideal S1024x1024 .bf16) (row : Vec Ideal S1x1024 .f32) (p e : Fin 1024) :
    k0_pay4 x1 w1 row (ix3 (0 : Fin 1) p e)
      = (∑ k : Fin 1024, x1 (ix3 (0 : Fin 1) p k) * w1 (ix2 k e)) + row (ix2 (0 : Fin 1) e) := by
  unfold k0_pay4
  simp only [shapeCast_self, shapeCast_ab_1ab_apply, addf_apply, blockDot_apply, truncf_apply, shapeCast_1ab_ab_apply, broadcastTo_1b_ab_apply]

end Cert.KernelIdeal.Fused

end
-- ==== Proof.KI.Blocks.lean ====
/-
  Which entries of the argument arrays each window's block holds. At point `t` (batch `t / 4`, step `t % 4`):
  the x1 window holds rows 1024·max(step − 2, 0) … of the batch; the x2 window rows 1024·min(step, 1) …;
  the result window the same rows as x1's. The two weight windows always hold the whole transposed halves of W
  that the host operations before the launch prepared (entry (k, e) of the first is W[e, k], of the second
  W[e, 1024 + k]), and the bias window holds b as one row.
-/
import proofs.«168540_j82446192214445_2_alg».proof.Proof.KI.Carried
import proofs.«168540_j82446192214445_2_alg».proof.Proof.Spec
import Idealize.ShloMosaic.Lib.Pipeline.Value
import Idealize.ShloMosaic.Lib.StableHlo.Run
import Idealize.ShloMosaic.Lib.ValueLayout

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.StableHlo Idealize.ShloMosaic.ValueIdx
open Cert.Fused

variable (m : (ℓ : Loc nD τ sig) → Buf (Elt Ideal) ℓ)

/-! ## The block indices over the grid -/

theorem index_x1 : ∀ t : Fin cfg0.N, win0_0.index t 0 = t.val / 4 ∧ win0_0.index t 1 = t.val % 4 - 2 ∧ win0_0.index t 2 = 0 :=
  (by decide +kernel : ∀ t : Fin grid0.N, win0_0.index t 0 = t.val / 4 ∧ win0_0.index t 1 = t.val % 4 - 2 ∧ win0_0.index t 2 = 0)
theorem index_x2 : ∀ t : Fin cfg0.N, win0_1.index t 0 = t.val / 4 ∧ win0_1.index t 1 = min (t.val % 4) 1 ∧ win0_1.index t 2 = 0 :=
  (by decide +kernel : ∀ t : Fin grid0.N, win0_1.index t 0 = t.val / 4 ∧ win0_1.index t 1 = min (t.val % 4) 1 ∧ win0_1.index t 2 = 0)
theorem index_w1 : ∀ t : Fin cfg0.N, win0_2.index t 0 = 0 ∧ win0_2.index t 1 = 0 :=
  (by decide +kernel : ∀ t : Fin grid0.N, win0_2.index t 0 = 0 ∧ win0_2.index t 1 = 0)
theorem index_w2 : ∀ t : Fin cfg0.N, win0_3.index t 0 = 0 ∧ win0_3.index t 1 = 0 :=
  (by decide +kernel : ∀ t : Fin grid0.N, win0_3.index t 0 = 0 ∧ win0_3.index t 1 = 0)
theorem index_b : ∀ t : Fin cfg0.N, win0_4.index t 0 = 0 ∧ win0_4.index t 1 = 0 :=
  (by decide +kernel : ∀ t : Fin grid0.N, win0_4.index t 0 = 0 ∧ win0_4.index t 1 = 0)
theorem index_out : ∀ t : Fin cfg0.N, win0_5.index t 0 = t.val / 4 ∧ win0_5.index t 1 = t.val % 4 - 2 ∧ win0_5.index t 2 = 0 :=
  (by decide +kernel : ∀ t : Fin grid0.N, win0_5.index t 0 = t.val / 4 ∧ win0_5.index t 1 = t.val % 4 - 2 ∧ win0_5.index t 2 = 0)

/-! ## What the host operations before the launch prepared -/

/-- The first weight window's array: the first 1024 columns of W, transposed (the change of format is the identity). -/
theorem prepared_w1 (c : Dev nD) : (V m c main_v3 : S1024x1024.Idx → Elt Ideal .bf16)
    = truncf (F := Ideal) .bf16 (transpose S1024x1024 [1, 0]
        (extractStridedSlice S1024x1024 ![0, 0] (m ((c : Thread nD τ).loc main_arg2) : FVec Ideal S1024x2048 .f32) slices_S1024x2048_S1024x1024_0_0)
        transposes_S1024x1024_S1024x1024_1_0) bitsLt_bf16_f32 := by
  dsimp only [Gen.V, Gen.hostOps0]; after_results; try rfl
/-- The second weight window's array: the last 1024 columns of W, transposed. -/
theorem prepared_w2 (c : Dev nD) : (V m c main_v5 : S1024x1024.Idx → Elt Ideal .bf16)
    = truncf (F := Ideal) .bf16 (transpose S1024x1024 [1, 0]
        (extractStridedSlice S1024x1024 ![0, 1024] (m ((c : Thread nD τ).loc main_arg2) : FVec Ideal S1024x2048 .f32) slices_S1024x2048_S1024x1024_0_1024)
        transposes_S1024x1024_S1024x1024_1_0) bitsLt_bf16_f32 := by
  dsimp only [Gen.V, Gen.hostOps0]; after_results; try rfl
/-- The bias window's array: b as one row. -/
theorem prepared_b (c : Dev nD) : (V m c main_v6 : S1x1024.Idx → Elt Ideal .f32)
    = shapeCast S1x1024 (m ((c : Thread nD τ).loc main_arg3)) shapeCasts_S1024_S1x1024 := by
  dsimp only [Gen.V, Gen.hostOps0]; after_results; try rfl

/-! ## The blocks, entry by entry -/

/-- An entry of the x1 window's block is the entry of x1 in the batch, at the step's row offset. -/
theorem x1_entry (c : Dev nD) (t : Fin cfg0.N) (y : S1x1024x1024.Idx) (i : S8x2048x1024.Idx)
    (h0 : (i 0).val = t.val / 4) (h1 : (i 1).val = 1024 * (t.val % 4 - 2) + (y 1).val) (h2 : (i 2).val = (y 2).val) :
    (iblk m c 0 t : Vec Ideal S1x1024x1024 .f32) y = (m ((c : Thread nD τ).loc main_arg0) : S8x2048x1024.Idx → Elt Ideal .f32) i := by
  obtain ⟨e0, e1, e2⟩ := index_x1 t
  have hy : (y 0).val < 1 := (y 0).isLt
  unfold iblk
  rw [View.read_apply]
  show V m c main_arg0 _ = _
  rw [V_main_arg0]
  congr 1
  funext a
  apply Fin.ext
  match a with
  | ⟨0, _⟩ => show win0_0.index t 0 * 1 + 1 * (y 0).val = (i 0).val; rw [e0, h0]; omega
  | ⟨1, _⟩ => show win0_0.index t 1 * 1024 + 1 * (y 1).val = (i 1).val; rw [e1, h1]; omega
  | ⟨2, _⟩ => show win0_0.index t 2 * 1024 + 1 * (y 2).val = (i 2).val; rw [e2, h2]; omega

/-- An entry of the x2 window's block is the entry of x2 in the batch, at the step's row offset. -/
theorem x2_entry (c : Dev nD) (t : Fin cfg0.N) (y : S1x1024x1024.Idx) (i : S8x2048x1024.Idx)
    (h0 : (i 0).val = t.val / 4) (h1 : (i 1).val = 1024 * min (t.val % 4) 1 + (y 1).val) (h2 : (i 2).val = (y 2).val) :
    (iblk m c 1 t : Vec Ideal S1x1024x1024 .f32) y = (m ((c : Thread nD τ).loc main_arg1) : S8x2048x1024.Idx → Elt Ideal .f32) i := by
  obtain ⟨e0, e1, e2⟩ := index_x2 t
  have hy : (y 0).val < 1 := (y 0).isLt
  unfold iblk
  rw [View.read_apply]
  show V m c main_arg1 _ = _
  rw [V_main_arg1]
  congr 1
  funext a
  apply Fin.ext
  match a with
  | ⟨0, _⟩ => show win0_1.index t 0 * 1 + 1 * (y 0).val = (i 0).val; rw [e0, h0]; omega
  | ⟨1, _⟩ => show win0_1.index t 1 * 1024 + 1 * (y 1).val = (i 1).val; rw [e1, h1]; omega
  | ⟨2, _⟩ => show win0_1.index t 2 * 1024 + 1 * (y 2).val = (i 2).val; rw [e2, h2]; omega

/-- Entry (k, e) of the first weight window's block is W[e, k]. -/
theorem w1_entry (c : Dev nD) (t : Fin cfg0.N) (k e : Fin 1024) :
    (iblk m c 2 t : Vec Ideal S1024x1024 .bf16) (ix2 k e)
      = (m ((c : Thread nD τ).loc main_arg2) : S1024x2048.Idx → Elt Ideal .f32) (ix2 e (Spec.colLo k)) := by
  obtain ⟨e0, e1⟩ := index_w1 t
  unfold iblk
  rw [View.read_apply]
  show V m c main_v3 _ = _
  rw [prepared_w1]
  have hidx : ((cfg0.win 2).blk t).view.emb (ix2 k e) = ix2 k e := funext fun a => Fin.ext (by
    match a with
    | ⟨0, _⟩ => show win0_2.index t 0 * 1024 + 1 * k.val = k.val; rw [e0]; omega
    | ⟨1, _⟩ => show win0_2.index t 1 * 1024 + 1 * e.val = e.val; rw [e1]; omega)
  rw [hidx]
  show transpose S1024x1024 [1, 0] (extractStridedSlice S1024x1024 ![0, 0] (m ((c : Thread nD τ).loc main_arg2) : FVec Ideal S1024x2048 .f32) slices_S1024x2048_S1024x1024_0_0) transposes_S1024x1024_S1024x1024_1_0 (ix2 k e) = _
  rw [transpose_ix2_apply]
  exact extractStridedSlice_apply ![0, 0] _ slices_S1024x2048_S1024x1024_0_0 (ix2 e k) (ix2 e (Spec.colLo k)) (fun a => by
    match a with
    | ⟨0, _⟩ => show e.val = 0 + e.val; omega
    | ⟨1, _⟩ => show k.val = 0 + k.val; omega)

/-- Entry (k, e) of the second weight window's block is W[e, 1024 + k]. -/
theorem w2_entry (c : Dev nD) (t : Fin cfg0.N) (k e : Fin 1024) :
    (iblk m c 3 t : Vec Ideal S1024x1024 .bf16) (ix2 k e)
      = (m ((c : Thread nD τ).loc main_arg2) : S1024x2048.Idx → Elt Ideal .f32) (ix2 e (Spec.colHi k)) := by
  obtain ⟨e0, e1⟩ := index_w2 t
  unfold iblk
  rw [View.read_apply]
  show V m c main_v5 _ = _
  rw [prepared_w2]
  have hidx : ((cfg0.win 3).blk t).view.emb (ix2 k e) = ix2 k e := funext fun a => Fin.ext (by
    match a with
    | ⟨0, _⟩ => show win0_3.index t 0 * 1024 + 1 * k.val = k.val; rw [e0]; omega
    | ⟨1, _⟩ => show win0_3.index t 1 * 1024 + 1 * e.val = e.val; rw [e1]; omega)
  rw [hidx]
  show transpose S1024x1024 [1, 0] (extractStridedSlice S1024x1024 ![0, 1024] (m ((c : Thread nD τ).loc main_arg2) : FVec Ideal S1024x2048 .f32) slices_S1024x2048_S1024x1024_0_1024) transposes_S1024x1024_S1024x1024_1_0 (ix2 k e) = _
  rw [transpose_ix2_apply]
  exact extractStridedSlice_apply ![0, 1024] _ slices_S1024x2048_S1024x1024_0_1024 (ix2 e k) (ix2 e (Spec.colHi k)) (fun a => by
    match a with
    | ⟨0, _⟩ => show e.val = 0 + e.val; omega
    | ⟨1, _⟩ => show 1024 + k.val = 1024 + k.val; omega)

/-- Entry (0, e) of the bias window's block is b[e]. -/
theorem b_entry (c : Dev nD) (t : Fin cfg0.N) (e : Fin 1024) :
    (iblk m c 4 t : Vec Ideal S1x1024 .f32) (ix2 (0 : Fin 1) e)
      = (m ((c : Thread nD τ).loc main_arg3) : S1024.Idx → Elt Ideal .f32) (ix1 e) := by
  obtain ⟨e0, e1⟩ := index_b t
  unfold iblk
  rw [View.read_apply]
  show V m c main_v6 _ = _
  rw [prepared_b]
  have hidx : ((cfg0.win 4).blk t).view.emb (ix2 (0 : Fin 1) e) = ix2 (0 : Fin 1) e := funext fun a => Fin.ext (by
    match a with
    | ⟨0, _⟩ => show win0_4.index t 0 * 1 + 1 * 0 = 0; rw [e0]
    | ⟨1, _⟩ => show win0_4.index t 1 * 1024 + 1 * e.val = e.val; rw [e1]; omega)
  rw [hidx]
  exact shapeCast_a_1a_apply _ _ 0 e

end Cert.KernelIdeal.Fused

end
-- ==== Proof.KI.Value.lean ====
/-
  What the result array holds after the run. At a product step (step 2 or 3 of batch `p`) the block written back
  is rows 1024·(step − 2) … of batch `p` of one whole-array function, `kernelSide` of the four argument arrays:
  the block's entry (row `q`, feature `e`) is the product of x1's row with W1ᵀ's column `e` plus the batch's bias
  row at `e`, and the bias row is what step 1 of the same batch computed from the accumulator that steps 0 and 1
  filled from the two halves of the batch's rows of x2. The sixteen written-back blocks tile the array.
-/
import proofs.«168540_j82446192214445_2_alg».proof.Proof.KI.Body
import proofs.«168540_j82446192214445_2_alg».proof.Proof.KI.Pieces
import proofs.«168540_j82446192214445_2_alg».proof.Proof.KI.Arith
import proofs.«168540_j82446192214445_2_alg».proof.Proof.KI.Blocks

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open Cert.Fused

variable (m : (ℓ : Loc nD τ sig) → Buf (Elt Ideal) ℓ) (ρ : Dev nD → PrngReg)

/-- The result array: the kernel's formula of the four argument arrays as launched. -/
abbrev result (c : Dev nD) : Buf (Elt Ideal) ((c : Thread nD τ).loc main_v7) :=
  Spec.kernelSide (m ((c : Thread nD τ).loc main_arg0)) (m ((c : Thread nD τ).loc main_arg1))
    (m ((c : Thread nD τ).loc main_arg2)) (m ((c : Thread nD τ).loc main_arg3))

/-- An entry of the block a product step stores is the entry of `result` at the batch, the step's row offset plus
    the row inside the block, and the feature. -/
theorem out_entry (c : Dev nD) (t : Fin cfg0.N) (h : 2 ≤ t.val % 4) (p : Fin 8) (r : Fin 2048) (q e : Fin 1024)
    (h0 : p.val = t.val / 4) (h1 : r.val = 1024 * (t.val % 4 - 2) + q.val) :
    outOf m c t h (ix3 (0 : Fin 1) q e) = result m c (ix3 p r e) := by
  have hN : t.val < 32 := lt_of_lt_of_eq t.isLt N32
  have hx1 : ∀ k : Fin 1024, (iblk m c 0 t : Vec Ideal S1x1024x1024 .f32) (ix3 (0 : Fin 1) q k)
      = (m ((c : Thread nD τ).loc main_arg0) : S8x2048x1024.Idx → Elt Ideal .f32) (ix3 p r k) := fun k =>
    x1_entry m c t _ _ h0 h1 rfl
  have hlo : ∀ (k j : Fin 1024), (iblk m c 1 (clearPt (biasPt t (by omega))) : Vec Ideal S1x1024x1024 .f32) (ix3 (0 : Fin 1) j k)
      = (m ((c : Thread nD τ).loc main_arg1) : S8x2048x1024.Idx → Elt Ideal .f32) (ix3 p (Spec.rowLo j) k) := fun k j =>
    x2_entry m c _ _ _ (by show p.val = (4 * ((4 * (t.val / 4) + 1) / 4)) / 4; omega)
      (by show j.val = 1024 * min ((4 * ((4 * (t.val / 4) + 1) / 4)) % 4) 1 + j.val; omega) rfl
  have hhi : ∀ (k j : Fin 1024), (iblk m c 1 (biasPt t (by omega)) : Vec Ideal S1x1024x1024 .f32) (ix3 (0 : Fin 1) j k)
      = (m ((c : Thread nD τ).loc main_arg1) : S8x2048x1024.Idx → Elt Ideal .f32) (ix3 p (Spec.rowHi j) k) := fun k j =>
    x2_entry m c _ _ _ (by show p.val = (4 * (t.val / 4) + 1) / 4; omega)
      (by show 1024 + j.val = 1024 * min ((4 * (t.val / 4) + 1) % 4) 1 + j.val; omega) rfl
  rw [outOf_eq, product_apply]
  show _ + rowOf m c (biasPt t (by omega)) _ (ix2 (0 : Fin 1) e) = _
  rw [rowOf_eq, bias_apply]
  simp only [sum_apply, accOf_eq, clear_apply, hx1, hlo, hhi, w1_entry, w2_entry, b_entry]
  rfl

/-- A block is written back exactly at the product steps. -/
theorem product_of_flush (t : Fin cfg0.N) (hf : (cfg0.win 5).flush t = true) : 2 ≤ t.val % 4 := by
  by_contra hn
  have := noFlush_out t (fun h' => hn ((inProduct_iff t).mp h'))
  rw [this] at hf
  exact Bool.false_ne_true hf

/-- What a product step writes back is its block of `result`. -/
theorem flushed_eq (c : Dev nD) (t : Fin cfg0.N) (hf : (cfg0.win 5).flush t = true) :
    (dats m 0 c).flushed 5 t = ((cfg0.win 5).blk t).view.read (Elt Ideal) (result m c) := by
  have h2 := product_of_flush t hf
  obtain ⟨e0, e1, e2⟩ := index_out t
  show (cfg0.win 5).cut (grid0.coords t) ((dats m 0 c).after 5 t) = _
  rw [after_out, outAt_product m c t h2]
  funext y
  rw [View.read_apply]
  obtain ⟨a, q, e, rfl⟩ : ∃ (a : Fin 1) (q e : Fin 1024), y = ix3 a q e := ⟨y 0, y 1, y 2, eq_ix3 y⟩
  obtain rfl : a = 0 := Subsingleton.elim _ _
  have hN : t.val < 32 := lt_of_lt_of_eq t.isLt N32
  have hidx : ((cfg0.win 5).blk t).view.emb (ix3 (0 : Fin 1) q e)
      = ix3 (⟨t.val / 4, by omega⟩ : Fin 8) (⟨1024 * (t.val % 4 - 2) + q.val, by have := q.isLt; omega⟩ : Fin 2048) e :=
    funext fun a => Fin.ext (by
      match a with
      | ⟨0, _⟩ => show win0_5.index t 0 * 1 + 1 * 0 = t.val / 4; rw [e0]; omega
      | ⟨1, _⟩ => show win0_5.index t 1 * 1024 + 1 * q.val = 1024 * (t.val % 4 - 2) + q.val; rw [e1]; omega
      | ⟨2, _⟩ => show win0_5.index t 2 * 1024 + 1 * e.val = e.val; rw [e2]; omega)
  rw [hidx]
  exact out_entry m c t h2 _ _ q e rfl rfl

/-- An index of the array is in point `t`'s block iff each coordinate is in the block's range on its axis. -/
theorem mem_block (t : Fin cfg0.N) (i : S8x2048x1024.Idx) :
    i ∈ ((cfg0.win 5).blk t).view.set ↔ ∀ a : Fin 3, win0_5.index t a * S1x1024x1024.size a ≤ (i a).val ∧ (i a).val < win0_5.index t a * S1x1024x1024.size a + S1x1024x1024.size a := by
  show i ∈ ((View.whole main_v7).slice (win0_5.rect t)).set ↔ _
  rw [View.set_slice_whole, Rect.mem_set_unit]
  exact Iff.rfl

/-- Every index of the result lies in the block some product step writes back: batch `i 0`, step 2 + (row / 1024). -/
theorem covered (i : S8x2048x1024.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 1024 := (i 2).isLt
  let t : Fin cfg0.N := ⟨4 * (i 0).val + 2 + (i 1).val / 1024, by have := N32; omega⟩
  have ht : t.val = 4 * (i 0).val + 2 + (i 1).val / 1024 := rfl
  obtain ⟨e0, e1, e2⟩ := index_out t
  refine ⟨t, flush_out t ((inProduct_iff t).mpr (by omega)), ?_⟩
  rw [mem_block]
  intro a
  match a with
  | ⟨0, _⟩ => show win0_5.index t 0 * 1 ≤ (i 0).val ∧ (i 0).val < win0_5.index t 0 * 1 + 1; rw [e0, ht]; omega
  | ⟨1, _⟩ => show win0_5.index t 1 * 1024 ≤ (i 1).val ∧ (i 1).val < win0_5.index t 1 * 1024 + 1024; rw [e1, ht]; omega
  | ⟨2, _⟩ => show win0_5.index t 2 * 1024 ≤ (i 2).val ∧ (i 2).val < win0_5.index t 2 * 1024 + 1024; rw [e2]; omega

/-- So the result array ends holding `result`. -/
theorem final (c : Dev nD) : (dats m 0 c).arrAt 5 cfg0.N = result m c :=
  (dats m 0 c).arrAt_eq_of_cover 5 (result m c) (flushed_eq m c) covered

/-- The run, read: the result array at the kernel's formula of the arguments, the arguments unchanged. -/
theorem run_value : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 5).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Fused

end
-- ==== Proof.RefValue.lean ====
/-
  The reference's result, read index by index, is `refSide`: the product of x1's row with the first half of W's
  row, plus the product of x2's column sums with the second half divided by the number of rows, plus b.
-/
import proofs.«168540_j82446192214445_2_alg».proof.Proof.Gen.ReferenceIdeal.Read
import proofs.«168540_j82446192214445_2_alg».proof.Proof.Spec

noncomputable section

namespace Cert.ReferenceIdeal.Hand

open Cert.ReferenceIdeal Cert.ReferenceIdeal.Gen Cert.ReferenceIdeal.Read Cert.Fused.Spec
open Idealize.ShloMosaic Idealize.ShloMosaic.ValueIdx

/-- The index of x1 the first product reads. -/
theorem lhs_direct (i : S8x2048x1024.Idx) (k : Fin 1024) : lidx_main_v2 i k = ix3 (i 0) (i 1) k :=
  funext fun a => Fin.ext (by match a with | ⟨0, _⟩ => rfl | ⟨1, _⟩ => rfl | ⟨2, _⟩ => rfl)
/-- The index of W it reads: row `e`, a column of the first half. -/
theorem rhs_direct (i : S8x2048x1024.Idx) (k : Fin 1024) : idx_main_v0 (ridx_main_v2 i k) = ix2 (i 2) (colLo k) :=
  funext fun a => Fin.ext (by match a with | ⟨0, _⟩ => rfl | ⟨1, _⟩ => rfl)
/-- The index of x2 a column sum reads. -/
theorem lhs_mean (i : S8x2048x1024.Idx) (k : Fin 1024) (j : Fin 2048) :
    idx_main_v3 (lidx_main_v4 (idx_main_v7 (idx_main_v8 i)) k) j = ix3 (i 0) j k :=
  funext fun a => Fin.ext (by match a with | ⟨0, _⟩ => rfl | ⟨1, _⟩ => rfl | ⟨2, _⟩ => rfl)
/-- The index of W the second product reads: row `e`, a column of the second half. -/
theorem rhs_mean (i : S8x2048x1024.Idx) (k : Fin 1024) :
    idx_main_v1 (ridx_main_v4 (idx_main_v7 (idx_main_v8 i)) k) = ix2 (i 2) (colHi k) :=
  funext fun a => Fin.ext (by match a with | ⟨0, _⟩ => rfl | ⟨1, _⟩ => rfl)
/-- The index of b. -/
theorem idx_bias (i : S8x2048x1024.Idx) : idx_main_v10 (idx_main_v11 i) = ix1 (i 2) :=
  funext fun a => Fin.ext (by match a with | ⟨0, _⟩ => rfl)

theorem ref_is_spec (x0 x1 : (⟨S8x2048x1024, .f32⟩ : BufTy).Contents (Elt Ideal)) (x2 : (⟨S1024x2048, .f32⟩ : BufTy).Contents (Elt Ideal))
    (x3 : (⟨S1024, .f32⟩ : BufTy).Contents (Elt Ideal)) :
    val_main_v12 (F := Ideal) x0 x1 x2 x3 = refSide x0 x1 x2 x3 := by
  funext i
  rw [val_main_v12_apply, val_main_v9_apply, val_main_v11_apply, val_main_v10_apply, val_main_v2_apply, val_main_v8_apply,
    val_main_v7_apply, val_main_v6_apply, val_main_v5_apply, val_main_cst_0_apply, val_main_v4_apply]
  simp only [val_main_v0_apply, val_main_v1_apply, val_main_v3_apply, val_main_cst_apply, Ideal.addf_def, Ideal.hostDivf_def,
    Ideal.ofBits_def, lhs_direct, rhs_direct, lhs_mean, rhs_mean, idx_bias]
  rfl

end Cert.ReferenceIdeal.Hand

end
-- ==== Proof.Finite.lean ====
/-
  From the precondition to real numbers. The precondition says, of each of the four argument arrays, that every
  entry's absolute value is below +∞ (each `all` a reduction by `and` that came out true, the four joined by
  `and`). An extended real whose absolute value is below +∞ is neither infinity, so it is a real number.
-/
import proofs.«168540_j82446192214445_2_alg».proof.Defs
import proofs.«168540_j82446192214445_2_alg».proof.Proof.Gen.Pre_finite_inputs
import Idealize.ShloMosaic.Lib.ReduceAll
import Idealize.ShloMosaic.Lib.ValueIdx
import Idealize.ShloMosaic.PureOps.Ideal.Laws

noncomputable section

namespace Cert.Fused.Finite

open Idealize.ShloMosaic Cert.Pre_finite_inputs

instance : Subsingleton S_.Idx := ⟨fun a b => funext fun d => d.elim0⟩

/-- The float pattern of +∞ denotes the top of the extended reals. -/
theorem inf_eq : Ideal.ofBits .f32 0x7F800000#32 = (⊤ : EReal) := by
  simp [Ideal.ofBits, Ideal.ieee]

/-- |x| < +∞ leaves only the real numbers. -/
theorem real_of_lt_inf (x : EReal) (h : Ideal.cmp .olt (max x (-x)) (Ideal.ofBits .f32 0x7F800000#32) = 1#1) :
    ∃ r : ℝ, x = (r : EReal) := by
  rw [inf_eq] at h
  have h' : max x (-x) < ⊤ := by
    by_contra hn
    simp [Ideal.cmp, hn] at h
  induction x using EReal.rec with
  | bot => simp at h'
  | coe r => exact ⟨r, rfl⟩
  | top => simp at h'

/-- Under the precondition every entry of every argument array is a real number. -/
theorem finite_of_pre [Cert.Pre_finite_inputs.Facts] (a0 a1 : FVec Ideal S8x2048x1024 .f32) (a2 : FVec Ideal S1024x2048 .f32) (a3 : FVec Ideal S1024 .f32)
    (hpre : Cert.Pre_finite_inputs.fn (F := Ideal) a0 a1 a2 a3 = fun _ => 1#1) :
    (∀ j, ∃ r : ℝ, a0 j = (r : EReal)) ∧ (∀ j, ∃ r : ℝ, a1 j = (r : EReal))
      ∧ (∀ j, ∃ r : ℝ, a2 j = (r : EReal)) ∧ (∀ j, ∃ r : ℝ, a3 j = (r : EReal)) := by
  have h0 := congrFun hpre ValueIdx.ix0
  dsimp only [fn, fn_part1] at h0
  obtain ⟨h012, h3⟩ := IntOp.andi_eq_one.mp h0
  obtain ⟨h01, h2⟩ := IntOp.andi_eq_one.mp h012
  obtain ⟨hA, hB⟩ := IntOp.andi_eq_one.mp h01
  exact ⟨fun j => real_of_lt_inf _ (Host.reduce_andi_all _ _ _ _ _ hA j),
    fun j => real_of_lt_inf _ (Host.reduce_andi_all _ _ _ _ _ hB j),
    fun j => real_of_lt_inf _ (Host.reduce_andi_all _ _ _ _ _ h2 j),
    fun j => real_of_lt_inf _ (Host.reduce_andi_all _ _ _ _ _ h3 j)⟩

end Cert.Fused.Finite

end
-- ==== Proof.lean ====
/-
  The fused kernel against its reference: out[p, r, :] = x1[p, r, :]·W1ᵀ + mean_j(x2[p, j, :])·W2ᵀ + b, where
  W = [W1 | W2] column-wise.

  The kernel walks a grid of 8 batches × 4 steps. Steps 0 and 1 of a batch sum the two halves of the batch's rows
  of x2 column by column into an accumulator; step 1 then scales the sums by 2⁻¹¹ (the float 1/2048, exact),
  multiplies by W2ᵀ and adds b, leaving the batch's bias row; steps 2 and 3 multiply the two halves of the batch's
  rows of x1 by W1ᵀ and add the bias row. The reference multiplies x2's column sums by W2ᵀ first and divides by
  2048 afterwards, and adds b last.

  The frames (each program runs to the end, faults nowhere, leaves its arguments as they were): for the kernel, at
  the word level and at the ideal reading alike, the body is run step by step and the two scratch buffers are
  tracked through the four steps of a batch (Proof/K, Proof/KI: Phases, the three steps, Carried, Body); for the
  reference, its run read back. The idealization rewrote nothing, so it is preserved trivially. The two results agree
  entry by entry on real inputs: a sum over 2048 rows is the sum of its halves, a constant factor moves across a
  finite sum, dividing by 2048 is multiplying by 2⁻¹¹, and addition is associative (Proof/Spec); the precondition
  makes every input entry a real number (Proof/Finite).
-/
import proofs.«168540_j82446192214445_2_alg».proof.Defs
import proofs.«168540_j82446192214445_2_alg».proof.Proof.Gen.Kernel
import proofs.«168540_j82446192214445_2_alg».proof.Proof.Gen.KernelIdeal
import proofs.«168540_j82446192214445_2_alg».proof.Proof.Gen.ReferenceIdeal
import proofs.«168540_j82446192214445_2_alg».proof.Proof.Gen.ReferenceIdeal.Run
import proofs.«168540_j82446192214445_2_alg».proof.Proof.Gen.ReferenceIdeal.Read
import proofs.«168540_j82446192214445_2_alg».proof.Proof.Gen.Pre_finite_inputs
import proofs.«168540_j82446192214445_2_alg».proof.Proof.K.Body
import proofs.«168540_j82446192214445_2_alg».proof.Proof.KI.Value
import proofs.«168540_j82446192214445_2_alg».proof.Proof.RefValue
import proofs.«168540_j82446192214445_2_alg».proof.Proof.Finite
import proofs.«168540_j82446192214445_2_alg».proof.Proof.Spec
import Idealize.ShloMosaic.Adequacy
import Idealize.ShloMosaic.Init

noncomputable section

namespace Cert.Proof

open Idealize.ShloMosaic Idealize.SL.Sem

theorem frame_kernel : Cert.frame_Kernel := fun m ρ _ => Cert.Kernel.Fused.frame (F := Bits) m ρ

theorem frame_kernelIdeal : Cert.frame_KernelIdeal := fun m ρ _ => Cert.KernelIdeal.Fused.frame (F := Ideal) m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories agreeing on the arguments both programs end with the same result array: the kernel's at its
    formula, the reference's at its own, and on the real inputs the precondition grants the two formulas agree. -/
theorem algebraic : Cert.algebraic_KernelIdeal_ReferenceIdeal := by
  intro m ρ m' ρ' hpre hagree
  refine ⟨fun c => Cert.KernelIdeal.Fused.result m c, Cert.KernelIdeal.Fused.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Hand.ref_is_spec,
    (hagree c).1, (hagree c).2.1, (hagree c).2.2.1, (hagree c).2.2.2]
  obtain ⟨f0, f1, f2, f3⟩ := Cert.Fused.Finite.finite_of_pre _ _ _ _ (hpre c)
  funext i
  exact (Cert.Fused.Spec.sides_eq _ _ _ _ f0 f1 f2 f3 i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
